-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x64 : Shape := ⟨2, ![5000, 64]⟩
abbrev S5000x1 : Shape := ⟨2, ![5000, 1]⟩
abbrev S850000x64 : Shape := ⟨2, ![850000, 64]⟩
abbrev S1x64 : Shape := ⟨2, ![1, 64]⟩

abbrev nBuf : Space → Nat
  | .hbm => 59
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x64, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x64, .f32⟩
  | .hbm, ⟨38, _⟩ => ⟨S_, .f32⟩
  | .hbm, ⟨39, _⟩ => ⟨S50000x64, .f32⟩
  | .hbm, ⟨40, _⟩ => ⟨S850000x1, .i32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x64, .f32⟩
  | .hbm, ⟨53, _⟩ => ⟨S_, .f32⟩
  | .hbm, ⟨54, _⟩ => ⟨S50000x64, .f32⟩
  | .hbm, ⟨55, _⟩ => ⟨S850000x1, .i32⟩
  | .hbm, ⟨56, _⟩ => ⟨S50000x64, .f32⟩
  | .hbm, ⟨57, _⟩ => ⟨S1x64, .f32⟩
  | .hbm, ⟨58, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x64, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x64, .f32⟩
  | .hbm, ⟨56, _⟩ => ⟨S850000x1, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S50000x64, .f32⟩
  | .hbm, ⟨91, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel program's run, with its result named.

  Every weakly fair execution of the program terminates, nothing faulting, with the six argument arrays as launched and the
  result array holding what the fold of the program's segments leaves there: the contents `W8` at the last boundary — the
  launch memory taken through each stretch of host operations and, at each of the three kernels, through that kernel's
  write-backs. The statement strengthens the frame claim by one conjunct; the final state is read against the last thread
  state at the result's buffer exactly as at each argument's.
-/
import proofs.«126456_j86268713107997_2_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_value : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Gcn.KernelRun

end
-- ==== Proof.LibRowOps.lean ====
/-
  Rows gathered and rows scattered, read at an index.

  A graph propagation step `h ↦ segment_sum (h[row] * norm[:, None], col)` lowers to one `stablehlo.gather` that
  copies whole rows of an `[N, F]` array — row `e` of the `[E, F]` result is the operand's row named by start index
  `e`, read signed and clamped into `[0, N − 1]` — and one accumulating `stablehlo.scatter` that adds row `e` of the
  `[E, F]` updates onto the operand's row named by scatter index `e`, read signed and NOT clamped (an update whose
  row is outside `[0, N)` is dropped). This module states those dimension numbers once for every `N`, `E`, `F`
  (`rowGather`, `rowScatter`) and reads both operations at an index `(n, f)`:

  * `rowGather_operandIdx`: result element `(e, f)` reads the operand at `(clampRow idx e, f)`;
  * `rowScatter_resultIdx`: update element `(e, f)` lands on `(n, f')` exactly when start index `e` reads `n` and
    `f = f'`;
  * `scatterAdd_rows_apply`: at the ideal values the accumulating scatter at `(n, f)` is the operand there plus the
    sum, over the updates' rows `e` whose start index reads `n`, of the update at `(e, f)`.

  The column `f` passes through both untouched and the rows chosen depend on the index arrays alone: that is what
  lets a propagation step commute with a product by a matrix on the feature axis.
-/
import Idealize.ShloMosaic.PureOps.Ideal
import Idealize.ShloMosaic.Lib.ValueIdx

noncomputable section

open scoped BigOperators

namespace Cert.Lib.RowOps

open Idealize.ShloMosaic Idealize.ShloMosaic.ValueIdx

variable {N E F : Nat}

/-- The dimension numbers of `x[idx]` for an operand `[N, F]` and start indices `[E, 1]`: whole rows, result `[E, F]`. -/
abbrev rowGather (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x.at[idx].add(u)` for an operand `[N, F]`, scatter indices `[E, 1]`, updates `[E, F]`. -/
abbrev rowScatter (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

/-- The operand row start index `e` names: the index word read signed, clamped into `[0, N − 1]`. -/
def clampRow (hN : 0 < N) {w : Nat} (idx : IVec ⟨2, ![E, 1]⟩ w) (e : Fin E) : Fin N :=
  ⟨min (idx (ix2 e 0)).toInt.toNat (N - 1), by omega⟩

/-- A row gather's result element `(e, f)` reads the operand at `(clampRow idx e, f)`. -/
theorem rowGather_operandIdx (hN : 0 < N)
    (wf : GatherDims.WF ⟨2, ![N, F]⟩ ⟨2, ![E, 1]⟩ ⟨2, ![E, F]⟩ [1] [0] [] [0] [] 1 ![1, F])
    {w : Nat} (idx : IVec ⟨2, ![E, 1]⟩ w) (e : Fin E) (f : Fin F) :
    (rowGather N E F wf).operandIdx (ix2 e f) idx = ix2 (clampRow hN idx e) f := by
  funext a
  refine Fin.ext ?_
  match a with
  | ⟨0, _⟩ =>
    show (rowGather N E F wf).start (ix2 e f) idx 0 + (rowGather N E F wf).batchCoord (ix2 e f) 0
        + (rowGather N E F wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E F wf).startIndexMap from List.mem_singleton.mpr rfl)]
    have hsi : (rowGather N E F wf).siIdx (ix2 e f) ⟨List.idxOf (0 : Fin 2) (rowGather N E F wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E F wf).start (ix2 e f) idx 1 + (rowGather N E F wf).batchCoord (ix2 e f) 1
        + (rowGather N E F wf).offCoord (ix2 e f) 1 = f.val
    have hs : (rowGather N E F wf).start (ix2 e f) idx 1 = 0 := by
      unfold GatherDims.start
      rw [dif_neg (show (1 : Fin 2) ∉ ([0] : List (Fin 2)) from by decide)]
    have ho : (rowGather N E F wf).offCoord (ix2 e f) 1 = f.val := by
      unfold GatherDims.offCoord
      rw [dif_pos ((GatherDims.mem_sKept _ _).mpr ⟨show (1 : Fin 2) ∉ ([0] : List (Fin 2)) from by decide, List.not_mem_nil⟩)]
      rfl
    rw [GatherDims.batchCoord_eq_zero _ _ _ List.not_mem_nil, hs, ho]
    omega

/-- A row scatter's update element `(e, f)` lands on `(n, f')` exactly when scatter index `e` reads `n` and the columns agree. -/
theorem rowScatter_resultIdx
    (wf : ScatterDims.WF ⟨2, ![N, F]⟩ ⟨2, ![E, 1]⟩ ⟨2, ![E, F]⟩ [1] [0] [0] 1)
    {w : Nat} (idx : IVec ⟨2, ![E, 1]⟩ w) (e : Fin E) (f : Fin F) (n : Fin N) (f' : Fin F) :
    (rowScatter N E F wf).resultIdx? (ix2 e f) idx = some (ix2 n f')
      ↔ ((idx (ix2 e 0)).toInt = (n.val : Int) ∧ f = f') := by
  have hs0 : (rowScatter N E F wf).start (ix2 e f) idx 0 = (idx (ix2 e 0)).toInt := by
    unfold ScatterDims.start
    rw [dif_pos (show (0 : Fin 2) ∈ (rowScatter N E F wf).scatterDimsToOperandDims from List.mem_singleton.mpr rfl)]
    refine congrArg (fun k => (idx k).toInt) ?_
    funext b; refine Fin.ext ?_
    match b with
    | ⟨0, _⟩ => rfl
    | ⟨1, _⟩ => rfl
  have hs1 : (rowScatter N E F wf).start (ix2 e f) idx 1 = 0 := by
    unfold ScatterDims.start
    rw [dif_neg (show (1 : Fin 2) ∉ ([0] : List (Fin 2)) from by decide)]
  have hw0 : (rowScatter N E F wf).window (ix2 e f) 0 = 0 := by
    have hk : (0 : Fin 2) ∉ (rowScatter N E F wf).sKept :=
      (show (0 : Fin 2) ∉ (List.finRange 2).filter (· ∉ ([0] : List (Fin 2))) from by decide)
    unfold ScatterDims.window
    rw [dif_neg hk]
  have hw1 : (rowScatter N E F wf).window (ix2 e f) 1 = f.val := by
    have hk : (1 : Fin 2) ∈ (rowScatter N E F wf).sKept :=
      (show (1 : Fin 2) ∈ (List.finRange 2).filter (· ∉ ([0] : List (Fin 2))) from by decide)
    unfold ScatterDims.window
    rw [dif_pos hk]
    rfl
  unfold ScatterDims.resultIdx?
  split
  · rename_i h
    rw [Option.some.injEq]
    constructor
    · intro heq
      have h0 := congrArg (fun i => (i 0).val) heq
      have h1 := congrArg (fun i => (i 1).val) heq
      have g0 := (h 0).1
      simp only [hs0, hw0] at h0 g0
      simp only [hs1, hw1] at h1
      refine ⟨?_, Fin.ext ?_⟩
      · show (idx (ix2 e 0)).toInt = (n.val : Int)
        have : ((idx (ix2 e 0)).toInt + ((0 : Nat) : Int)).toNat = n.val := h0
        omega
      · have : ((0 : Int) + (f.val : Int)).toNat = f'.val := h1
        omega
    · rintro ⟨hi, rfl⟩
      funext a
      refine Fin.ext ?_
      match a with
      | ⟨0, _⟩ =>
        show ((rowScatter N E F wf).start (ix2 e f) idx 0 + ((rowScatter N E F wf).window (ix2 e f) 0 : Int)).toNat = n.val
        rw [hs0, hw0, hi]; omega
      | ⟨1, _⟩ =>
        show ((rowScatter N E F wf).start (ix2 e f) idx 1 + ((rowScatter N E F wf).window (ix2 e f) 1 : Int)).toNat = f.val
        rw [hs1, hw1]; omega
  · rename_i h
    constructor
    · intro heq; exact absurd heq (by simp)
    · rintro ⟨hi, rfl⟩
      exfalso
      apply h
      intro a
      match a with
      | ⟨0, _⟩ =>
        show 0 ≤ (rowScatter N E F wf).start (ix2 e f) idx 0 + ((rowScatter N E F wf).window (ix2 e f) 0 : Int)
          ∧ (rowScatter N E F wf).start (ix2 e f) idx 0 + ((rowScatter N E F wf).window (ix2 e f) 0 : Int) < (N : Int)
        rw [hs0, hw0, hi]
        have := n.isLt
        omega
      | ⟨1, _⟩ =>
        show 0 ≤ (rowScatter N E F wf).start (ix2 e f) idx 1 + ((rowScatter N E F wf).window (ix2 e f) 1 : Int)
          ∧ (rowScatter N E F wf).start (ix2 e f) idx 1 + ((rowScatter N E F wf).window (ix2 e f) 1 : Int) < (F : Int)
        rw [hs1, hw1]
        have := f.isLt
        omega

/-- At the ideal values an accumulating row scatter read at `(n, f)`: the operand there plus the sum, over the rows `e`
    of the updates whose scatter index reads `n`, of the update at `(e, f)`. -/
theorem scatterAdd_rows_apply
    (wf : ScatterDims.WF ⟨2, ![N, F]⟩ ⟨2, ![E, 1]⟩ ⟨2, ![E, F]⟩ [1] [0] [0] 1)
    (x : (⟨2, ![N, F]⟩ : Shape).Idx → EReal) {w : Nat} (idx : IVec ⟨2, ![E, 1]⟩ w)
    (upd : (⟨2, ![E, F]⟩ : Shape).Idx → EReal) (n : Fin N) (f : Fin F) :
    Ideal.hostScatterAdd (rowScatter N E F wf) x idx upd (ix2 n f)
      = x (ix2 n f) + ∑ e ∈ Finset.univ.filter (fun e : Fin E => (idx (ix2 e 0)).toInt = (n.val : Int)), upd (ix2 e f) := by
  unfold Ideal.hostScatterAdd
  refine congrArg (x (ix2 n f) + ·) ?_
  rw [Finset.sum_filter, sum_idx2, Finset.sum_filter]
  refine Finset.sum_congr rfl fun e _ => ?_
  simp only [rowScatter_resultIdx]
  by_cases hP : (idx (ix2 e 0)).toInt = (n.val : Int)
  · simp only [hP, true_and, if_true, Finset.sum_ite_eq', Finset.mem_univ]
  · simp only [hP, false_and, if_false, Finset.sum_const_zero]

end Cert.Lib.RowOps

end
-- ==== Proof.LibRealSum.lean ====
/-
  Real entries among the extended reals, and the one law that lets a graph propagation step commute with a product by a matrix.

  At the ideal values a float is an extended real, and on the extended reals a product does not distribute over a
  sum in general (`⊤ + ⊥`). Where every entry is a real it does: this module names that condition (`IsReal`), shows
  the operations a degree normalisation is made of keep it (a finite sum, a product, a maximum, a choice between two
  reals, the reciprocal square root of a positive real), pushes the coercion `ℝ → EReal` through finite sums
  (`coe_sum`), and proves the law (`step_comm`): for real coefficients `ν e`, real rows `a e k` and a real
  column `w k`,

      0 + ∑ e ∈ S, (∑ k, a e k · w k) · ν e  =  ∑ k, (∑ e ∈ S, a e k · ν e) · w k

  — adding up weighted rows and then contracting with `w` is contracting each row with `w` and then adding up.
-/
import Idealize.ShloMosaic.PureOps.Ideal
import Idealize.ShloMosaic.PureOps.Ideal.Laws

noncomputable section

open scoped BigOperators

namespace Cert.Lib.RealSum

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One propagation step on real entries stays real: zero plus a sum of products of reals is the real sum of products. -/
theorem step_real {E : Type*} (S : Finset E) (a ν : E → ℝ) :
    (0 : EReal) + ∑ e ∈ S, (a e : EReal) * (ν e : EReal) = ((∑ e ∈ S, a e * ν e : ℝ) : EReal) := by
  rw [zero_add, coe_sum]
  simp only [EReal.coe_mul]

/-- A propagation step commutes with a contraction of the feature axis: weighting and adding up rows that were
    already contracted with `w` gives the contraction with `w` of the weighted sum of the rows. -/
theorem step_comm {E K : Type*} [Fintype K] (S : Finset E) (a : E → K → ℝ) (ν : E → ℝ) (w : K → ℝ) :
    (0 : EReal) + ∑ e ∈ S, ((∑ k, a e k * w k : ℝ) : EReal) * (ν e : EReal)
      = ((∑ k, (∑ e ∈ S, a e k * ν e) * w k : ℝ) : EReal) := by
  rw [step_real]
  refine congrArg _ ?_
  simp only [Finset.sum_mul]
  rw [Finset.sum_comm]
  refine Finset.sum_congr rfl fun k _ => Finset.sum_congr rfl fun e _ => by ring

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The ideal reciprocal square root of a positive real is a real. -/
theorem IsReal.rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- A real that is at least a positive real has a real ideal reciprocal square root. -/
theorem IsReal.rsqrt_max {x c : EReal} (hx : IsReal x) {r : ℝ} (hc : c = (r : EReal)) (hr : 0 < r) :
    IsReal (Ideal.rsqrt (Max.max x c)) := by
  obtain ⟨a, rfl⟩ := hx
  subst hc
  have : Max.max (a : EReal) (r : EReal) = ((Max.max a r : ℝ) : EReal) := (EReal.coe_strictMono.monotone.map_max (a := a) (b := r)).symm
  rw [this]
  exact IsReal.rsqrt_of_pos (lt_of_lt_of_le hr (le_max_right a r))

/-! ## The host operations a normalisation is made of, on real entries

Stated over arbitrary shapes and dimension numbers, so that at a program's literal shapes they apply to the printed
operation as it stands. -/

/-- The f32 zero word is the real `0`. -/
theorem IsReal.ofBits_zero : IsReal (FloatOps.ofBits (F := Ideal) .f32 0x00000000#32) := by
  rw [Ideal.ofBits_def, Ideal.ofBits_zero_f32]
  exact IsReal.zero

/-- A float product of reals is real. -/
theorem IsReal.fmul {x y : EReal} (hx : IsReal x) (hy : IsReal y) :
    IsReal (FloatOps.mulf (F := Ideal) (φ := .f32) x y) := hx.mul hy

/-- A choice between two reals is real, whichever the condition picks. -/
theorem IsReal.select (c : BitVec 1) {a b : EReal} (ha : IsReal a) (hb : IsReal b) : IsReal (Scalar.select c a b) := by
  unfold Scalar.select
  split <;> assumption

/-- The host's reciprocal square root of the maximum of a real and a positive real is real. -/
theorem IsReal.host_rsqrt_max {x c : EReal} (hx : IsReal x) {r : ℝ} (hc : c = (r : EReal)) (hr : 0 < r) :
    IsReal (FloatOps.hostUnary (F := Ideal) (φ := .f32) .rsqrt (FloatOps.maximumf (F := Ideal) (φ := .f32) x c)) :=
  IsReal.rsqrt_max hx hc hr

/-- An accumulating scatter of real updates into a real operand is real at every index: each element is the operand's
    plus a finite sum of updates. -/
theorem IsReal.host_scatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-- A gathered entry of a real array is real, wherever the index points. -/
theorem IsReal.host_gather {s si t : Shape} (d : GatherDims s si t) {w : Nat} (x : s.Idx → EReal) (idx : IVec si w)
    (hx : ∀ i, IsReal (x i)) (j : t.Idx) : IsReal (Host.gather d x idx j) := hx _

end Cert.Lib.RealSum

end
-- ==== Proof.LibPropagate.lean ====
/-
  A graph propagation step commutes with a product by a matrix on the feature axis.

  One propagation step on an `[N, F]` array `h` is `h' (n, f) = ∑ { e : col e = n }  h (row e, f) · ν e`: a gather of whole
  rows (`row e`, clamped), a scale by the edge's coefficient `ν e`, and an accumulating scatter onto the rows `col e`
  (`hop`, over the dimension numbers of `RowOps`; `hop_apply` reads it at an index). The rows an edge reads and
  writes depend on the two index arrays only, never on the column `f`, so the step acts on each column separately
  and is linear in it. Hence, for REAL entries `r`, real coefficients `ν` and a real `[K, J]` matrix `w`,

      hop (r · w)  =  (hop r) · w          (`hop_contract`, with `hop_real`: the step of a real array is real)

  where `r · w` is the matrix product `contract r w (n, j) = ∑ k, r (n, k) · w (k, j)`: propagating the `J`-wide
  product is the product of the propagated `K`-wide array. The law under it is `RealSum.step_comm`; reality of the
  entries is what makes the product distribute over the extended reals' sums.

  Also here: the two broadcasts a printed step is made of, read at an index (`zeros_apply`: the zero array the
  scatter accumulates into; `rowBroadcast_apply`: an `[E]` array of coefficients spread along the columns of `[E, F]`).
-/
import proofs.«126456_j86268713107997_2_alg».proof.Proof.LibRowOps
import proofs.«126456_j86268713107997_2_alg».proof.Proof.LibRealSum
import Idealize.ShloMosaic.Lib.Pipeline.Value
import Idealize.ShloMosaic.PureOps.Ideal.Laws

noncomputable section

open scoped BigOperators

namespace Cert.Lib.Propagate

open Idealize.ShloMosaic Idealize.ShloMosaic.ValueIdx Cert.Lib.RowOps Cert.Lib.RealSum

variable {N E F K J : Nat}

/-- One propagation step at the ideal values: rows gathered by `rowI`, scaled entry by entry by `nB`, accumulated by
    `colI` into `zArr`. -/
def hop (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (h : (⟨2, ![N, F]⟩ : Shape).Idx → EReal) :
    (⟨2, ![N, F]⟩ : Shape).Idx → EReal :=
  Ideal.hostScatterAdd (rowScatter N E F wfS) zArr colI
    (fun j => h ((rowGather N E F wfG).operandIdx j rowI) * nB j)

/-- The step read at `(n, f)`: what was there plus, over the edges `e` whose target reads `n`, the source row's entry in
    column `f` times the edge's coefficient there. -/
theorem hop_apply (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (h : (⟨2, ![N, F]⟩ : Shape).Idx → EReal) (n : Fin N) (f : Fin F) :
    hop wfG wfS rowI colI zArr nB h (ix2 n f)
      = zArr (ix2 n f) + ∑ e ∈ Finset.univ.filter (fun e : Fin E => (colI (ix2 e 0)).toInt = (n.val : Int)),
          h (ix2 (clampRow hN rowI e) f) * nB (ix2 e f) := by
  unfold hop
  rw [scatterAdd_rows_apply]
  refine congrArg (zArr (ix2 n f) + ·) (Finset.sum_congr rfl fun e _ => ?_)
  show h ((rowGather N E F wfG).operandIdx (ix2 e f) rowI) * nB (ix2 e f) = _
  rw [rowGather_operandIdx hN]

/-- The step on real entries, as a real array. -/
def stepReal (hN : 0 < N) (rowI colI : IVec ⟨2, ![E, 1]⟩ 32) (ν : Fin E → ℝ)
    (r : (⟨2, ![N, F]⟩ : Shape).Idx → ℝ) : (⟨2, ![N, F]⟩ : Shape).Idx → ℝ :=
  fun x => ∑ e ∈ Finset.univ.filter (fun e : Fin E => (colI (ix2 e 0)).toInt = ((x 0).val : Int)),
    r (ix2 (clampRow hN rowI e) (⟨(x 1).val, idx2_lt1 x⟩ : Fin F)) * ν e

/-- The matrix product of a real `[N, K]` array with a real `[K, J]` matrix. -/
def contract (r : (⟨2, ![N, K]⟩ : Shape).Idx → ℝ) (w : (⟨2, ![K, J]⟩ : Shape).Idx → ℝ) :
    (⟨2, ![N, J]⟩ : Shape).Idx → ℝ :=
  fun y => ∑ k : Fin K, r (ix2 (⟨(y 0).val, idx2_lt0 y⟩ : Fin N) k) * w (ix2 k (⟨(y 1).val, idx2_lt1 y⟩ : Fin J))

/-- The coercion of an entry of the product is the sum of the coerced products. -/
theorem contract_coe (r : (⟨2, ![N, K]⟩ : Shape).Idx → ℝ) (w : (⟨2, ![K, J]⟩ : Shape).Idx → ℝ) (n : Fin N) (j : Fin J) :
    ((contract r w (ix2 n j) : ℝ) : EReal) = ∑ k : Fin K, (r (ix2 n k) : EReal) * (w (ix2 k j) : EReal) := by
  show ((∑ k : Fin K, r (ix2 n k) * w (ix2 k j) : ℝ) : EReal) = _
  rw [coe_sum]
  simp only [EReal.coe_mul]

/-- The step of a real array is the real array `stepReal`. -/
theorem hop_real (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (hz : ∀ i, zArr i = 0) (ν : Fin E → ℝ)
    (hn : ∀ e f, nB (ix2 e f) = (ν e : EReal)) (r : (⟨2, ![N, F]⟩ : Shape).Idx → ℝ) :
    hop wfG wfS rowI colI zArr nB (fun x => (r x : EReal)) = fun x => ((stepReal hN rowI colI ν r x : ℝ) : EReal) := by
  funext x
  obtain ⟨n, f, rfl⟩ : ∃ (n : Fin N) (f : Fin F), x = ix2 n f := ⟨x 0, x 1, eq_ix2 x⟩
  rw [hop_apply hN, hz]
  simp only [hn]
  exact step_real _ (fun e => r (ix2 (clampRow hN rowI e) f)) ν

/-- PROPAGATION COMMUTES WITH THE PRODUCT: the step of the `J`-wide product `r · w` is the product with `w` of the step
    of the `K`-wide array `r` — the same index arrays and coefficients on both widths. -/
theorem hop_contract (hN : 0 < N)
    (wfG : GatherDims.WF ⟨2, ![N, J]⟩ ⟨2, ![E, 1]⟩ ⟨2, ![E, J]⟩ [1] [0] [] [0] [] 1 ![1, J])
    (wfS : ScatterDims.WF ⟨2, ![N, J]⟩ ⟨2, ![E, 1]⟩ ⟨2, ![E, J]⟩ [1] [0] [0] 1)
    (rowI colI : IVec ⟨2, ![E, 1]⟩ 32) (zArr : (⟨2, ![N, J]⟩ : Shape).Idx → EReal)
    (nB : (⟨2, ![E, J]⟩ : Shape).Idx → EReal) (hz : ∀ i, zArr i = 0) (ν : Fin E → ℝ)
    (hn : ∀ e j, nB (ix2 e j) = (ν e : EReal))
    (r : (⟨2, ![N, K]⟩ : Shape).Idx → ℝ) (w : (⟨2, ![K, J]⟩ : Shape).Idx → ℝ) :
    hop wfG wfS rowI colI zArr nB (fun y => ((contract r w y : ℝ) : EReal))
      = fun y => ((contract (stepReal hN rowI colI ν r) w y : ℝ) : EReal) := by
  funext y
  obtain ⟨n, j, rfl⟩ : ∃ (n : Fin N) (j : Fin J), y = ix2 n j := ⟨y 0, y 1, eq_ix2 y⟩
  rw [hop_apply hN, hz]
  simp only [hn]
  exact step_comm _ (fun e k => r (ix2 (clampRow hN rowI e) k)) ν (fun k => w (ix2 k j))

/-! ## The step as a program prints it

A printed step is `Host.scatterAdd ds zArr colI (mulf (Host.gather dg h rowI) nB)` over the program's own dimension
records; when those are the row records of `RowOps` it is `hop`. Stated over arbitrary records equal to them, so that at
a program's literal shapes the printed term is met as it stands. -/

/-- The printed step is `hop`. -/
theorem host_hop_eq
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (nB : FVec Ideal ⟨2, ![E, F]⟩ .f32)
    (h : FVec Ideal ⟨2, ![N, F]⟩ .f32) :
    Host.scatterAdd ds zArr colI (mulf (Host.gather dg h rowI) nB) = hop wfG wfS rowI colI zArr nB h := by
  subst hdg hds
  rfl

/-- The printed step of a real array is the real array `stepReal`. -/
theorem host_hop_real (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (nB : FVec Ideal ⟨2, ![E, F]⟩ .f32)
    (hz : ∀ i, zArr i = 0) (ν : Fin E → ℝ) (hn : ∀ e f, nB (ix2 e f) = (ν e : EReal))
    (r : (⟨2, ![N, F]⟩ : Shape).Idx → ℝ) :
    Host.scatterAdd ds zArr colI (mulf (Host.gather dg (fun x => (r x : EReal)) rowI) nB)
      = fun x => ((stepReal hN rowI colI ν r x : ℝ) : EReal) :=
  (host_hop_eq wfG wfS dg ds hdg hds rowI colI zArr nB _).trans (hop_real hN wfG wfS rowI colI zArr nB hz ν hn r)

/-- The printed step of the `J`-wide product `r · w` is the product with `w` of the step of `r`. -/
theorem host_hop_contract (hN : 0 < N)
    (wfG : GatherDims.WF ⟨2, ![N, J]⟩ ⟨2, ![E, 1]⟩ ⟨2, ![E, J]⟩ [1] [0] [] [0] [] 1 ![1, J])
    (wfS : ScatterDims.WF ⟨2, ![N, J]⟩ ⟨2, ![E, 1]⟩ ⟨2, ![E, J]⟩ [1] [0] [0] 1)
    (dg : GatherDims ⟨2, ![N, J]⟩ ⟨2, ![E, 1]⟩ ⟨2, ![E, J]⟩) (ds : ScatterDims ⟨2, ![N, J]⟩ ⟨2, ![E, 1]⟩ ⟨2, ![E, J]⟩)
    (hdg : dg = rowGather N E J wfG) (hds : ds = rowScatter N E J wfS)
    (rowI colI : IVec ⟨2, ![E, 1]⟩ 32) (zArr : FVec Ideal ⟨2, ![N, J]⟩ .f32) (nB : FVec Ideal ⟨2, ![E, J]⟩ .f32)
    (hz : ∀ i, zArr i = 0) (ν : Fin E → ℝ) (hn : ∀ e j, nB (ix2 e j) = (ν e : EReal))
    (r : (⟨2, ![N, K]⟩ : Shape).Idx → ℝ) (w : (⟨2, ![K, J]⟩ : Shape).Idx → ℝ) :
    Host.scatterAdd ds zArr colI (mulf (Host.gather dg (fun y => ((contract r w y : ℝ) : EReal)) rowI) nB)
      = fun y => ((contract (stepReal hN rowI colI ν r) w y : ℝ) : EReal) :=
  (host_hop_eq wfG wfS dg ds hdg hds rowI colI zArr nB _).trans (hop_contract hN wfG wfS rowI colI zArr nB hz ν hn r w)

/-- The zero array an accumulating scatter starts from: the f32 zero word broadcast to any shape reads `0`. -/
theorem zeros_apply {t : Shape} (h : (⟨0, ![]⟩ : Shape).BroadcastsInDim t (![] : Fin 0 → Fin t.rank)) (i : t.Idx) :
    broadcastInDim t (![] : Fin 0 → Fin t.rank) h (constant (F := Ideal) ⟨0, ![]⟩ .f32 0x00000000#32) i = 0 := by
  rw [broadcastInDim_apply _ h _ i ix0 (fun a => a.elim0)]
  exact Ideal.ofBits_zero_f32

/-- An `[E]` array spread over the columns of `[E, F]` (through `[E, 1]`) reads, at `(e, f)`, its entry `e`. -/
theorem rowBroadcast_apply {α : Type} (hE : E ≠ 1)
    (h1 : (⟨1, ![E]⟩ : Shape).BroadcastsInDim ⟨2, ![E, 1]⟩ (![0] : Fin 1 → Fin 2))
    (h2 : (⟨2, ![E, 1]⟩ : Shape).BroadcastsInDim ⟨2, ![E, F]⟩ (![0, 1] : Fin 2 → Fin 2))
    (x : (⟨1, ![E]⟩ : Shape).Idx → α) (e : Fin E) (f : Fin F) :
    broadcastInDim ⟨2, ![E, F]⟩ (![0, 1] : Fin 2 → Fin 2) h2 (broadcastInDim ⟨2, ![E, 1]⟩ (![0] : Fin 1 → Fin 2) h1 x) (ix2 e f)
      = x (ix1 e) := by
  rw [broadcastInDim_apply _ h2 _ (ix2 e f) (ix2 e (0 : Fin 1)) (fun a => match a with
    | ⟨0, _⟩ => by show e.val = if E = 1 then 0 else e.val; rw [if_neg hE]
    | ⟨1, _⟩ => by show 0 = if (1 : Nat) = 1 then 0 else f.val; rw [if_pos rfl])]
  rw [broadcastInDim_apply _ h1 _ (ix2 e (0 : Fin 1)) (ix1 e) (fun a => match a with
    | ⟨0, _⟩ => by show e.val = if E = 1 then 0 else e.val; rw [if_neg hE])]

end Cert.Lib.Propagate

end
-- ==== Proof.LibDense.lean ====
/-
  A dense layer read at an index.

  For an `[N, K]` array `a`, a `[K, J]` matrix `w` and a `[J]` row `b` of extended reals:

  * `project a w` is the matrix product, entry `(n, j) = ∑ k, a (n, k) · w (k, j)`;
  * `affine a w b` adds the row `b` to every row of it, entry `(n, j) = ∑ k, a (n, k) · w (k, j) + b j`.

  Both are stated for every `N`, `K`, `J`; at an index built from its coordinates they unfold by `rfl`.
-/
import Idealize.ShloMosaic.PureOps.Ideal
import Idealize.ShloMosaic.Lib.ValueIdx

noncomputable section

open scoped BigOperators

namespace Cert.Lib.Dense

open Idealize.ShloMosaic Idealize.ShloMosaic.ValueIdx

variable {N K J : Nat}

/-- The matrix product of an `[N, K]` array with a `[K, J]` matrix: entry `(n, j)` is `∑ k, a (n, k) · w (k, j)`. -/
def project (a : (⟨2, ![N, K]⟩ : Shape).Idx → EReal) (w : (⟨2, ![K, J]⟩ : Shape).Idx → EReal) :
    (⟨2, ![N, J]⟩ : Shape).Idx → EReal :=
  fun y => ∑ k : Fin K, a (ix2 (⟨(y 0).val, idx2_lt0 y⟩ : Fin N) k) * w (ix2 k (⟨(y 1).val, idx2_lt1 y⟩ : Fin J))

/-- The product with the row `b` added to each of its rows: entry `(n, j)` is `∑ k, a (n, k) · w (k, j) + b j`. -/
def affine (a : (⟨2, ![N, K]⟩ : Shape).Idx → EReal) (w : (⟨2, ![K, J]⟩ : Shape).Idx → EReal)
    (b : (⟨1, ![J]⟩ : Shape).Idx → EReal) : (⟨2, ![N, J]⟩ : Shape).Idx → EReal :=
  fun y => project a w y + b (ix1 (⟨(y 1).val, idx2_lt1 y⟩ : Fin J))

theorem project_apply (a : (⟨2, ![N, K]⟩ : Shape).Idx → EReal) (w : (⟨2, ![K, J]⟩ : Shape).Idx → EReal) (n : Fin N) (j : Fin J) :
    project a w (ix2 n j) = ∑ k : Fin K, a (ix2 n k) * w (ix2 k j) := rfl

theorem affine_apply (a : (⟨2, ![N, K]⟩ : Shape).Idx → EReal) (w : (⟨2, ![K, J]⟩ : Shape).Idx → EReal)
    (b : (⟨1, ![J]⟩ : Shape).Idx → EReal) (n : Fin N) (j : Fin J) :
    affine a w b (ix2 n j) = (∑ k : Fin K, a (ix2 n k) * w (ix2 k j)) + b (ix1 j) := rfl

end Cert.Lib.Dense

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibNormHop.lean ====
/-
  A propagation normalised on both sides, on real entries.

  A graph layer with symmetric normalisation weights the edge `e` from row `s e` to row `t e` by `D (s e) · D (t e)` for a
  real column `D` over the nodes. There are two ways to compute it. One gathers the source rows, multiplies row `e` of the
  gathered array by the edge's weight and adds the rows up at their targets (`Propagate.stepReal` with the coefficient
  `edgeCoef`). The other multiplies row `n` of the array by `D n` first, gathers and adds up with no coefficient
  (`gatherSum`), and multiplies row `n` of the sum by `D n` again. On real entries they agree
  (`scaled_gatherSum_eq_step`): `D (t e)` is the same for every edge landing on a row, so it factors out of that row's sum —
  provided the row the edge's target word names when it is READ (moved up if negative, clamped) is the row it LANDS on
  (not moved, dropped if outside), which holds for every edge that lands at all (`clampRow_wrapped_of_lands`).

  Also here, for any extents: a flat array gathered at a column of index words read at an entry (`flatGather_apply`); the
  gather-and-add of a real array as a real array (`host_gatherSum`); a real column spread along the rows' entries and
  multiplied in (`mul_spread_real`); the propagation commuting with a matrix product, in the reals (`stepReal_contract`);
  a dense layer on real entries, as a product and bias (`project_real`, `affine_real`) and as the host's `dot_general`
  followed by a bias row spread over the rows (`dotGeneral_real`, `biasRows_apply`, `add_biasRows_real`); two such layers
  after a propagation each, as one real array (`twoLayer`); the word-level fact under `clampRow_wrapped_of_lands`
  (`wrapped_word_of_toInt`); and the normalisation `deg ^ (-1/2)` where `deg > 0`, else `0`, of a real `deg` being real
  (`isReal_rsqrt_where_pos`).
-/
import proofs.«126456_j86268713107997_2_alg».proof.Proof.LibPropagate
import proofs.«126456_j86268713107997_2_alg».proof.Proof.LibDense
import proofs.«126456_j86268713107997_2_alg».proof.Proof.LibPlainDot

noncomputable section

open scoped BigOperators

namespace Cert.Lib.NormHop

open Idealize.ShloMosaic Idealize.ShloMosaic.ValueIdx Cert.Lib.RowOps Cert.Lib.RealSum Cert.Lib.Propagate Cert.Lib.Dense

variable {N E F K J : Nat}

/-! ## A flat array gathered at a column of index words -/

/-- The dimension numbers of `x[idx]` for a flat operand `[N]` and start indices `[E, 1]`: result `[E]`. -/
abbrev flatGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered array is the operand at the row start index `e` names (read signed, clamped). -/
theorem flatGather_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) {w : Nat} (idx : IVec ⟨2, ![E, 1]⟩ w) (e : Fin E) :
    Host.gather (flatGather N E wf) x idx (ix1 e) = x (ix1 (clampRow hN idx e)) := by
  unfold Host.gather
  refine congrArg x ?_
  funext a
  obtain rfl : a = 0 := Subsingleton.elim _ _
  refine Fin.ext ?_
  show (flatGather N E wf).start (ix1 e) idx 0 + (flatGather N E wf).batchCoord (ix1 e) 0
      + (flatGather N E wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Rows gathered and added up, with no coefficient -/

/-- Over the edges landing on row `n`, the sum of the source rows' entries in column `f`. -/
def gatherSum (hN : 0 < N) (rowI colI : IVec ⟨2, ![E, 1]⟩ 32) (r : (⟨2, ![N, F]⟩ : Shape).Idx → ℝ) :
    (⟨2, ![N, F]⟩ : Shape).Idx → ℝ :=
  fun x => ∑ e ∈ Finset.univ.filter (fun e : Fin E => (colI (ix2 e 0)).toInt = ((x 0).val : Int)),
    r (ix2 (clampRow hN rowI e) (⟨(x 1).val, idx2_lt1 x⟩ : Fin F))

/-- The printed gather-and-add of a real array, into zeros, is the real array `gatherSum`. -/
theorem host_gatherSum (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (hz : ∀ i, zArr i = 0)
    (r : (⟨2, ![N, F]⟩ : Shape).Idx → ℝ) :
    Host.scatterAdd ds zArr colI (Host.gather dg (fun x => (r x : EReal)) rowI)
      = fun x => ((gatherSum hN rowI colI r x : ℝ) : EReal) := by
  subst hdg hds
  funext x
  obtain ⟨n, f, rfl⟩ : ∃ (n : Fin N) (f : Fin F), x = ix2 n f := ⟨x 0, x 1, eq_ix2 x⟩
  show Ideal.hostScatterAdd (rowScatter N E F wfS) zArr colI
      (fun j => ((r ((rowGather N E F wfG).operandIdx j rowI) : ℝ) : EReal)) (ix2 n f) = _
  rw [scatterAdd_rows_apply, hz, zero_add]
  simp only [rowGather_operandIdx hN]
  exact (coe_sum _ _).symm

/-! ## A real column over the rows, multiplied in -/

/-- A real array times a real column spread along its rows' entries: row `n` is multiplied by `D n`. -/
theorem mul_spread_real (hN1 : N ≠ 1)
    (h1 : (⟨1, ![N]⟩ : Shape).BroadcastsInDim ⟨2, ![N, 1]⟩ (![0] : Fin 1 → Fin 2))
    (h2 : (⟨2, ![N, 1]⟩ : Shape).BroadcastsInDim ⟨2, ![N, F]⟩ (![0, 1] : Fin 2 → Fin 2))
    (d : FVec Ideal ⟨1, ![N]⟩ .f32) (D : Fin N → ℝ) (hd : ∀ n, d (ix1 n) = (D n : EReal))
    (r : (⟨2, ![N, F]⟩ : Shape).Idx → ℝ) :
    mulf (fun x => (r x : EReal) : FVec Ideal ⟨2, ![N, F]⟩ .f32)
        (broadcastInDim ⟨2, ![N, F]⟩ (![0, 1] : Fin 2 → Fin 2) h2 (broadcastInDim ⟨2, ![N, 1]⟩ (![0] : Fin 1 → Fin 2) h1 d))
      = fun x => ((r x * D (⟨(x 0).val, idx2_lt0 x⟩ : Fin N) : ℝ) : EReal) := by
  funext x
  obtain ⟨n, f, rfl⟩ : ∃ (n : Fin N) (f : Fin F), x = ix2 n f := ⟨x 0, x 1, eq_ix2 x⟩
  rw [mulf_apply, rowBroadcast_apply hN1 h1 h2 d n f, hd]
  exact (EReal.coe_mul _ _).symm

/-! ## The two normalisations agree -/

/-- The weight of edge `e`: the column at the row its source names times the column at the row its target names. -/
def edgeCoef (hN : 0 < N) (rowS rowT : IVec ⟨2, ![E, 1]⟩ 32) (D : Fin N → ℝ) (e : Fin E) : ℝ :=
  D (clampRow hN rowS e) * D (clampRow hN rowT e)

/-- Scaling the rows by `D`, gathering and adding up, and scaling by `D` again is the propagation with the edges'
    weights — when every edge landing on a row reads that row as its target. -/
theorem scaled_gatherSum_eq_step (hN : 0 < N) (rowS rowT colT : IVec ⟨2, ![E, 1]⟩ 32) (D : Fin N → ℝ)
    (hT : ∀ (e : Fin E) (n : Fin N), (colT (ix2 e 0)).toInt = (n.val : Int) → clampRow hN rowT e = n)
    (r : (⟨2, ![N, F]⟩ : Shape).Idx → ℝ) :
    (fun x => gatherSum hN rowS colT (fun y => r y * D (⟨(y 0).val, idx2_lt0 y⟩ : Fin N)) x * D (⟨(x 0).val, idx2_lt0 x⟩ : Fin N))
      = stepReal hN rowS colT (edgeCoef hN rowS rowT D) r := by
  funext x
  unfold gatherSum stepReal edgeCoef
  rw [Finset.sum_mul]
  refine Finset.sum_congr rfl fun e he => ?_
  rw [hT e ⟨(x 0).val, idx2_lt0 x⟩ (Finset.mem_filter.mp he).2]
  show r _ * D (clampRow hN rowS e) * D _ = r _ * (D (clampRow hN rowS e) * D _)
  ring

/-- The propagation commutes with a product by a matrix on the feature axis, in the reals. -/
theorem stepReal_contract (hN : 0 < N) (rowI colI : IVec ⟨2, ![E, 1]⟩ 32) (ν : Fin E → ℝ)
    (r : (⟨2, ![N, K]⟩ : Shape).Idx → ℝ) (w : (⟨2, ![K, J]⟩ : Shape).Idx → ℝ) :
    stepReal hN rowI colI ν (contract r w) = contract (stepReal hN rowI colI ν r) w := by
  funext y
  obtain ⟨n, j, rfl⟩ : ∃ (n : Fin N) (j : Fin J), y = ix2 n j := ⟨y 0, y 1, eq_ix2 y⟩
  show ∑ e ∈ Finset.univ.filter (fun e : Fin E => (colI (ix2 e 0)).toInt = (n.val : Int)),
      (∑ k : Fin K, r (ix2 (clampRow hN rowI e) k) * w (ix2 k j)) * ν e
    = ∑ k : Fin K, (∑ e ∈ Finset.univ.filter (fun e : Fin E => (colI (ix2 e 0)).toInt = (n.val : Int)),
        r (ix2 (clampRow hN rowI e) k) * ν e) * w (ix2 k j)
  simp only [Finset.sum_mul]
  rw [Finset.sum_comm]
  refine Finset.sum_congr rfl fun k _ => Finset.sum_congr rfl fun e _ => by ring

/-! ## A dense layer on real entries -/

/-- The product of two real arrays is the real product. -/
theorem project_real (r : (⟨2, ![N, K]⟩ : Shape).Idx → ℝ) (w : (⟨2, ![K, J]⟩ : Shape).Idx → ℝ) :
    project (fun x => (r x : EReal)) (fun x => (w x : EReal)) = fun y => ((contract r w y : ℝ) : EReal) := by
  funext y
  obtain ⟨n, j, rfl⟩ : ∃ (n : Fin N) (j : Fin J), y = ix2 n j := ⟨y 0, y 1, eq_ix2 y⟩
  exact (contract_coe r w n j).symm

/-- The real product with a real row added to each of its rows. -/
def affineReal (r : (⟨2, ![N, K]⟩ : Shape).Idx → ℝ) (w : (⟨2, ![K, J]⟩ : Shape).Idx → ℝ) (b : Fin J → ℝ) :
    (⟨2, ![N, J]⟩ : Shape).Idx → ℝ :=
  fun y => contract r w y + b (⟨(y 1).val, idx2_lt1 y⟩ : Fin J)

/-- A dense layer with a bias on real entries is real. -/
theorem affine_real (r : (⟨2, ![N, K]⟩ : Shape).Idx → ℝ) (w : (⟨2, ![K, J]⟩ : Shape).Idx → ℝ)
    (b : (⟨1, ![J]⟩ : Shape).Idx → EReal) (β : Fin J → ℝ) (hb : ∀ j, b (ix1 j) = (β j : EReal)) :
    affine (fun x => (r x : EReal)) (fun x => (w x : EReal)) b = fun y => ((affineReal r w β y : ℝ) : EReal) := by
  funext y
  obtain ⟨n, j, rfl⟩ : ∃ (n : Fin N) (j : Fin J), y = ix2 n j := ⟨y 0, y 1, eq_ix2 y⟩
  show project (fun x => (r x : EReal)) (fun x => (w x : EReal)) (ix2 n j) + b (ix1 j) = _
  rw [project_real, hb]
  exact (EReal.coe_add _ _).symm

/-- A `[J]` row spread over the rows of `[N, J]` (through `[1, J]`) reads, at `(n, j)`, its entry `j`. -/
theorem biasRows_apply {α : Type}
    (h1 : (⟨1, ![J]⟩ : Shape).BroadcastsInDim ⟨2, ![1, J]⟩ (![1] : Fin 1 → Fin 2))
    (h2 : (⟨2, ![1, J]⟩ : Shape).BroadcastsInDim ⟨2, ![N, J]⟩ (![0, 1] : Fin 2 → Fin 2))
    (b : (⟨1, ![J]⟩ : Shape).Idx → α) (n : Fin N) (j : Fin J) :
    broadcastInDim ⟨2, ![N, J]⟩ (![0, 1] : Fin 2 → Fin 2) h2 (broadcastInDim ⟨2, ![1, J]⟩ (![1] : Fin 1 → Fin 2) h1 b) (ix2 n j)
      = b (ix1 j) := by
  rw [broadcastInDim_apply _ h2 _ (ix2 n j) (ix2 (0 : Fin 1) j) (fun a => match a with
    | ⟨0, _⟩ => by show 0 = if (1 : Nat) = 1 then 0 else n.val; rw [if_pos rfl]
    | ⟨1, _⟩ => by
      show j.val = if J = 1 then 0 else j.val
      split
      · have := j.isLt; omega
      · rfl)]
  rw [broadcastInDim_apply _ h1 _ (ix2 (0 : Fin 1) j) (ix1 j) (fun a => match a with
    | ⟨0, _⟩ => by
      show j.val = if J = 1 then 0 else j.val
      split
      · have := j.isLt; omega
      · rfl)]

/-- A real array plus a real row spread over its rows. -/
theorem add_biasRows_real
    (h1 : (⟨1, ![J]⟩ : Shape).BroadcastsInDim ⟨2, ![1, J]⟩ (![1] : Fin 1 → Fin 2))
    (h2 : (⟨2, ![1, J]⟩ : Shape).BroadcastsInDim ⟨2, ![N, J]⟩ (![0, 1] : Fin 2 → Fin 2))
    (b : FVec Ideal ⟨1, ![J]⟩ .f32) (β : Fin J → ℝ) (hb : ∀ j, b (ix1 j) = (β j : EReal))
    (r : (⟨2, ![N, J]⟩ : Shape).Idx → ℝ) :
    addf (fun x => (r x : EReal) : FVec Ideal ⟨2, ![N, J]⟩ .f32)
        (broadcastInDim ⟨2, ![N, J]⟩ (![0, 1] : Fin 2 → Fin 2) h2 (broadcastInDim ⟨2, ![1, J]⟩ (![1] : Fin 1 → Fin 2) h1 b))
      = fun x => ((r x + β (⟨(x 1).val, idx2_lt1 x⟩ : Fin J) : ℝ) : EReal) := by
  funext x
  obtain ⟨n, j, rfl⟩ : ∃ (n : Fin N) (j : Fin J), x = ix2 n j := ⟨x 0, x 1, eq_ix2 x⟩
  rw [addf_apply, biasRows_apply h1 h2 b n j, hb]
  exact (EReal.coe_add _ _).symm

/-- The host's plain `dot_general` of two real arrays is the real product. -/
theorem dotGeneral_real (d : DotDims ⟨2, ![N, K]⟩ ⟨2, ![K, J]⟩ ⟨2, ![N, J]⟩) (hd : Cert.PlainDot.IsPlain d)
    (r : (⟨2, ![N, K]⟩ : Shape).Idx → ℝ) (w : (⟨2, ![K, J]⟩ : Shape).Idx → ℝ) :
    Host.dotGeneral (F := Ideal) (φ₁ := .f32) (φ₂ := .f32) d none (fun x => (r x : EReal)) (fun x => (w x : EReal))
      = fun y => ((contract r w y : ℝ) : EReal) := by
  funext y
  obtain ⟨n, j, rfl⟩ : ∃ (n : Fin N) (j : Fin J), y = ix2 n j := ⟨y 0, y 1, eq_ix2 y⟩
  exact (Cert.PlainDot.dotGeneral_apply d hd none _ _ n j).trans (contract_coe r w n j).symm

/-- Two layers of "propagate with the edges' weights, then a dense layer with a bias", on real entries. -/
def twoLayer (hN : 0 < N) (rowS rowT colT : IVec ⟨2, ![E, 1]⟩ 32) (D : Fin N → ℝ)
    (x : (⟨2, ![N, F]⟩ : Shape).Idx → ℝ) (w1 : (⟨2, ![F, K]⟩ : Shape).Idx → ℝ) (β1 : Fin K → ℝ)
    (w2 : (⟨2, ![K, J]⟩ : Shape).Idx → ℝ) (β2 : Fin J → ℝ) : (⟨2, ![N, J]⟩ : Shape).Idx → ℝ :=
  affineReal (stepReal hN rowS colT (edgeCoef hN rowS rowT D)
    (affineReal (stepReal hN rowS colT (edgeCoef hN rowS rowT D) x) w1 β1)) w2 β2

/-! ## The index words -/

/-- A 32-bit word whose signed value is a row number `n < N` is not negative, so "moved up by a constant if negative" leaves
    it alone, and clamping into `[0, N − 1]` leaves it alone too. -/
theorem wrapped_word_of_toInt (x cN : BitVec 32) (n : Nat) (hn : n < N) (hl : x.toInt = (n : Int)) :
    min (Scalar.select (IntOp.cmpi .slt x 0#32) (IntOp.addi x cN) x).toInt.toNat (N - 1) = n := by
  have hnot : IntOp.cmpi .slt x 0#32 = 0#1 := by
    show BitVec.ofBool (x.slt (0#32)) = 0#1
    have : x.slt (0#32) = false := by
      rw [BitVec.slt_eq_decide]
      simp only [BitVec.toInt_zero, decide_eq_false_iff_not, not_lt]
      omega
    rw [this]; rfl
  rw [hnot, select_zero, hl]
  omega

/-- An edge whose target word, read as it stands, lands on row `n` also reads row `n` when the word is first moved up
    by a constant if negative and then clamped: a word that lands is not negative and is below `N`. -/
theorem clampRow_wrapped_of_lands (hN : 0 < N)
    (h0 : (⟨0, ![]⟩ : Shape).BroadcastsInDim ⟨1, ![E]⟩ (![] : Fin 0 → Fin 1))
    (h1 : (⟨1, ![E]⟩ : Shape).BroadcastsInDim ⟨2, ![E, 1]⟩ (![0] : Fin 1 → Fin 2))
    (tg : IVec ⟨1, ![E]⟩ 32) (cN : BitVec 32) (e : Fin E) (n : Fin N)
    (hl : BitVec.toInt (broadcastInDim ⟨2, ![E, 1]⟩ (![0] : Fin 1 → Fin 2) h1 tg (ix2 e 0)) = (n.val : Int)) :
    clampRow hN (broadcastInDim ⟨2, ![E, 1]⟩ (![0] : Fin 1 → Fin 2) h1
      (select (cmpi .slt tg (broadcastInDim ⟨1, ![E]⟩ (![] : Fin 0 → Fin 1) h0 (constantI ⟨0, ![]⟩ 32 0#32)))
        (addi tg (broadcastInDim ⟨1, ![E]⟩ (![] : Fin 0 → Fin 1) h0 (constantI ⟨0, ![]⟩ 32 cN))) tg)) e = n := by
  have hb : ∀ (v : IVec ⟨1, ![E]⟩ 32), broadcastInDim ⟨2, ![E, 1]⟩ (![0] : Fin 1 → Fin 2) h1 v (ix2 e 0) = v (ix1 e) := fun v =>
    broadcastInDim_apply _ h1 v (ix2 e 0) (ix1 e) (fun a => match a with
      | ⟨0, _⟩ => by
        show e.val = if E = 1 then 0 else e.val
        split
        · have := e.isLt; omega
        · rfl)
  rw [hb] at hl
  refine Fin.ext ?_
  unfold clampRow
  dsimp only
  rw [hb]
  exact wrapped_word_of_toInt (tg (ix1 e)) cN n.val n.isLt hl

/-! ## The normalisation is real -/

/-- `deg ^ (-1/2)` where `deg` is positive, zero elsewhere, of a real `deg`, is real. -/
theorem isReal_rsqrt_where_pos {s : Shape} (deg z z' : FVec Ideal s .f32) (hdeg : ∀ i, IsReal (deg i))
    (hz : ∀ i, z i = 0) (hz' : ∀ i, z' i = 0) (i : s.Idx) :
    IsReal (select (cmpf .ogt deg z) (Host.rsqrt deg) z' i) := by
  obtain ⟨r, hr⟩ := hdeg i
  rw [select_apply, cmpf_apply]
  show IsReal (Scalar.select (Ideal.cmp .ogt (deg i) (z i)) (Ideal.rsqrt (deg i)) (z' i))
  rw [hz, hz', hr]
  by_cases hpos : 0 < r
  · have : Ideal.cmp .ogt (r : EReal) 0 = 1#1 := by
      show BitVec.ofBool (decide ((0 : EReal) < (r : EReal))) = 1#1
      rw [decide_eq_true (by exact_mod_cast hpos)]; rfl
    rw [this, select_one]
    exact IsReal.rsqrt_of_pos hpos
  · have : Ideal.cmp .ogt (r : EReal) 0 = 0#1 := by
      show BitVec.ofBool (decide ((0 : EReal) < (r : EReal))) = 0#1
      rw [decide_eq_false (by exact_mod_cast hpos)]; rfl
    rw [this, select_zero]
    exact IsReal.zero

end Cert.Lib.NormHop

end
-- ==== Proof.Spec.lean ====
/-
  Two graph-convolution layers with symmetric normalisation, on real entries: the specification both programs meet.

  The nodes are the rows of an `[N, 64]` array, `N = 50000`; the edges are `E = 850000` pairs of 32-bit words (800000
  given ones followed by one self-loop per node). An edge `e` READS the row `clampRow rowS e` (its source word, moved up by
  `N` if negative, clamped into `[0, N − 1]`) and LANDS on row `n` when its target word, read as it stands, is `n`. With
  `D n = deg n ^ (-1/2)` (zero where the in-degree `deg n` is not positive) one layer is

      layer r w β (n, j) = max (∑ { e lands on n } (∑ k, r (row e, k) · w (k, j)) · (D (row e) · D (n)) + β j) 0

  (`layerReal`; the edge's weight is `edgeCoef`: the product of `D` at the row the source word reads and at the row the
  target word reads). The network is two layers (`netReal`).

  The fused form scales each row of `r · w` by `D` BEFORE gathering, adds the gathered rows up with no coefficient,
  and scales row `n` of the sum by `D n` afterwards (`fusedLayerReal`). On real entries the two agree
  (`fusedLayer_eq_layer`): `D n` is common to every edge landing on `n` and so factors out of that row's finite sum — the
  one place where the entries being real numbers, not extended reals, is used — provided an edge that lands on `n` also
  reads `n` through its target word.
-/
import proofs.«126456_j86268713107997_2_alg».proof.Proof.LibNormHop

noncomputable section

open scoped BigOperators

namespace Cert.Gcn

open Idealize.ShloMosaic Idealize.ShloMosaic.ValueIdx Cert.Lib.RowOps Cert.Lib.RealSum Cert.Lib.Propagate Cert.Lib.Dense
  Cert.Lib.NormHop

/-- There is at least one node. -/
theorem hN : 0 < 50000 := by norm_num

/-- The index of a row and the index of a column of an entry of an `[N, 64]` array. -/
abbrev rowOf (y : (⟨2, ![50000, 64]⟩ : Shape).Idx) : Fin 50000 := ⟨(y 0).val, idx2_lt0 y⟩
abbrev colOf (y : (⟨2, ![50000, 64]⟩ : Shape).Idx) : Fin 64 := ⟨(y 1).val, idx2_lt1 y⟩

variable (rowS rowT colT : IVec ⟨2, ![850000, 1]⟩ 32) (D : Fin 50000 → ℝ)

/-- One layer: project by `w`, propagate along the edges with the symmetric weights, add the bias row, clip below at zero. -/
def layerReal (r : (⟨2, ![50000, 64]⟩ : Shape).Idx → ℝ) (w : (⟨2, ![64, 64]⟩ : Shape).Idx → ℝ) (β : Fin 64 → ℝ) :
    (⟨2, ![50000, 64]⟩ : Shape).Idx → ℝ :=
  fun y => max (stepReal hN rowS colT (edgeCoef hN rowS rowT D) (contract r w) y + β (colOf y)) 0

/-- The two-layer network. -/
def netReal (x : (⟨2, ![50000, 64]⟩ : Shape).Idx → ℝ) (w1 : (⟨2, ![64, 64]⟩ : Shape).Idx → ℝ) (β1 : Fin 64 → ℝ)
    (w2 : (⟨2, ![64, 64]⟩ : Shape).Idx → ℝ) (β2 : Fin 64 → ℝ) : (⟨2, ![50000, 64]⟩ : Shape).Idx → ℝ :=
  layerReal rowS rowT colT D (layerReal rowS rowT colT D x w1 β1) w2 β2

/-- The projected rows, each scaled by its node's `D`. -/
def scaledReal (r : (⟨2, ![50000, 64]⟩ : Shape).Idx → ℝ) (w : (⟨2, ![64, 64]⟩ : Shape).Idx → ℝ) :
    (⟨2, ![50000, 64]⟩ : Shape).Idx → ℝ :=
  fun y => contract r w y * D (rowOf y)

/-- The fused layer: scaled rows gathered and added up with no coefficient, the sum's row scaled again, bias, clip. -/
def fusedLayerReal (r : (⟨2, ![50000, 64]⟩ : Shape).Idx → ℝ) (w : (⟨2, ![64, 64]⟩ : Shape).Idx → ℝ) (β : Fin 64 → ℝ) :
    (⟨2, ![50000, 64]⟩ : Shape).Idx → ℝ :=
  fun y => max (gatherSum hN rowS colT (scaledReal D r w) y * D (rowOf y) + β (colOf y)) 0

/-- The fused layer is the layer, when every edge that lands on a row reads that row through its target word. -/
theorem fusedLayer_eq_layer
    (hT : ∀ (e : Fin 850000) (n : Fin 50000), (colT (ix2 e 0)).toInt = (n.val : Int) → clampRow hN rowT e = n)
    (r : (⟨2, ![50000, 64]⟩ : Shape).Idx → ℝ) (w : (⟨2, ![64, 64]⟩ : Shape).Idx → ℝ) (β : Fin 64 → ℝ) :
    fusedLayerReal rowS colT D r w β = layerReal rowS rowT colT D r w β := by
  funext y
  have h := congrFun (scaled_gatherSum_eq_step hN rowS rowT colT D hT (contract r w)) y
  unfold fusedLayerReal layerReal scaledReal
  exact congrArg (fun t => max (t + β (colOf y)) 0) h

/-! ## The three kernels' whole-array functions, on the extended reals

What each kernel leaves in its output array, as one function of the arrays it reads, index by index. The first kernel
projects and scales (`scaleProj`); the last scales, adds the bias row and clips below at zero (`biasClip`); the middle one
is the last one's function followed by the first one's. -/

/-- Rows times a `[64, 64]` matrix, row `n` of the product scaled by entry `n` of a `[50000, 1]` column. -/
def scaleProj (x : (⟨2, ![50000, 64]⟩ : Shape).Idx → EReal) (w : (⟨2, ![64, 64]⟩ : Shape).Idx → EReal)
    (dv : (⟨2, ![50000, 1]⟩ : Shape).Idx → EReal) : (⟨2, ![50000, 64]⟩ : Shape).Idx → EReal :=
  fun y => (∑ k : Fin 64, x (ix2 (rowOf y) k) * w (ix2 k (colOf y))) * dv (ix2 (rowOf y) (0 : Fin 1))

/-- Row `n` scaled by entry `n` of the column, plus the `[1, 64]` bias row, clipped below at zero. -/
def biasClip (a : (⟨2, ![50000, 64]⟩ : Shape).Idx → EReal) (dv : (⟨2, ![50000, 1]⟩ : Shape).Idx → EReal)
    (b : (⟨2, ![1, 64]⟩ : Shape).Idx → EReal) : (⟨2, ![50000, 64]⟩ : Shape).Idx → EReal :=
  fun y => max (a y * dv (ix2 (rowOf y) (0 : Fin 1)) + b (ix2 (0 : Fin 1) (colOf y))) 0

end Cert.Gcn

end
-- ==== Proof.Words.lean ====
/-
  The edge words and the normalisation column, as both programs compute them from the `[2, 800000]` array of edge words.

  Row 0 of the array holds the 800000 given edges' source words and row 1 their target words; each is followed by the
  50000 self-loops `0, 1, …, 49999` (`srcWords`, `dstWords`). A word that is READ as a row is first moved up by 50000 if
  negative (`wrapWords`); every list of words is used as an `[850000, 1]` column (`asColumn`). The in-degree of a node
  counts the edges whose target word, as it stands, is that node (`degArr`: ones added up at the targets), and the
  normalisation is its reciprocal square root where it is positive and zero elsewhere (`dinvArr`). Both are arrays of real
  numbers (`degArr_isReal`, `dinvArr_eq`), and an edge that lands on a node also reads that node through its wrapped
  target word (`lands_reads`).
-/
import proofs.«126456_j86268713107997_2_alg».proof.Proof.Gen.KernelIdeal
import proofs.«126456_j86268713107997_2_alg».proof.Proof.Spec

noncomputable section

namespace Cert.Gcn

open Idealize.ShloMosaic Idealize.ShloMosaic.ValueIdx Cert.Lib.RowOps Cert.Lib.RealSum Cert.Lib.NormHop Cert.KernelIdeal
open Cert.KernelIdeal.Facts₀

variable (ei : IVec S2x800000 32)

/-- The source words: row 0 of the edge array, then one self-loop per node. -/
def srcWords : IVec S850000 32 :=
  concatenate S850000 0 [⟨S800000, shapeCast S800000 (extractStridedSlice S1x800000 ![0, 0] ei slices_S2x800000_S1x800000_0_0)
    shapeCasts_S1x800000_S800000⟩, ⟨S50000, iotaInDim S50000 32 0⟩] concatenates_S800000_S50000_S850000_d0

/-- The target words: row 1 of the edge array, then one self-loop per node. -/
def dstWords : IVec S850000 32 :=
  concatenate S850000 0 [⟨S800000, shapeCast S800000 (extractStridedSlice S1x800000 ![1, 0] ei slices_S2x800000_S1x800000_1_0)
    shapeCasts_S1x800000_S800000⟩, ⟨S50000, iotaInDim S50000 32 0⟩] concatenates_S800000_S50000_S850000_d0

/-- A word moved up by the number of nodes if it is negative. -/
def wrapWords (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- A list of words as a column. -/
def asColumn (v : IVec S850000 32) : IVec S850000x1 32 := broadcastInDim S850000x1 ![0] bcast_S850000_S850000x1_0 v

/-- The rows the edges read (wrapped source words), the rows their target words read (wrapped), and the rows they land on
    (target words as they stand). -/
def rowS : IVec S850000x1 32 := asColumn (wrapWords (srcWords ei))
def rowT : IVec S850000x1 32 := asColumn (wrapWords (dstWords ei))
def colT : IVec S850000x1 32 := asColumn (dstWords ei)

/-- The in-degree: ones added up at the target words. -/
def degArr : FVec Ideal S50000 .f32 :=
  Host.scatterAdd scatter_S50000_S850000x1_S850000_n_0_0_1
    (broadcastInDim S50000 ![] bcast_S_S50000 (constant (F := Ideal) S_ .f32 0x00000000#32)) (colT ei)
    (broadcastInDim S850000 ![] bcast_S_S850000 (constant (F := Ideal) S_ .f32 0x3F800000#32))

/-- The normalisation: the in-degree's reciprocal square root where it is positive, zero elsewhere. -/
def dinvArr : FVec Ideal S50000 .f32 :=
  select (cmpf (F := Ideal) .ogt (degArr ei) (broadcastInDim S50000 ![] bcast_S_S50000 (constant (F := Ideal) S_ .f32 0x00000000#32)))
    (Host.rsqrt (degArr ei)) (broadcastInDim S50000 ![] bcast_S_S50000 (constant (F := Ideal) S_ .f32 0x00000000#32))

/-- The normalisation as a real column. -/
def Dof (n : Fin 50000) : ℝ := (dinvArr ei (ix1 n)).toReal

/-- The f32 word of `1.0` is the real number one. -/
theorem one_word : FloatOps.ofBits (F := Ideal) .f32 0x3F800000#32 = ((1 : ℝ) : EReal) := by
  rw [Ideal.ofBits_def]
  simp [Ideal.ofBits, Ideal.ieee]
  rw [← EReal.coe_mul, ← EReal.coe_one]
  exact congrArg _ (by norm_num)

theorem degArr_isReal (i : S50000.Idx) : IsReal (degArr ei i) := by
  unfold degArr
  refine IsReal.host_scatterAdd _ _ _ _ (fun i => ?_) (fun j => ?_) i
  · rw [Cert.Lib.Propagate.zeros_apply]; exact IsReal.zero
  · rw [broadcastInDim_apply _ bcast_S_S850000 _ j ix0 (fun a => a.elim0)]
    exact ⟨1, one_word⟩

theorem dinvArr_isReal (i : S50000.Idx) : IsReal (dinvArr ei i) :=
  isReal_rsqrt_where_pos (degArr ei) _ _ (degArr_isReal ei) (fun i => Cert.Lib.Propagate.zeros_apply _ i)
    (fun i => Cert.Lib.Propagate.zeros_apply _ i) i

/-- The normalisation array is the coercion of the real column. -/
theorem dinvArr_eq (n : Fin 50000) : dinvArr ei (ix1 n) = (Dof ei n : EReal) := by
  obtain ⟨r, hr⟩ := dinvArr_isReal ei (ix1 n)
  unfold Dof
  rw [hr, EReal.toReal_coe]

/-- An edge that lands on node `n` reads node `n` through its wrapped target word. -/
theorem lands_reads (e : Fin 850000) (n : Fin 50000) (h : (colT ei (ix2 e 0)).toInt = (n.val : Int)) :
    clampRow hN (rowT ei) e = n :=
  clampRow_wrapped_of_lands hN bcast_S_S850000 bcast_S850000_S850000x1_0 (dstWords ei) 50000#32 e n h

end Cert.Gcn

end
-- ==== Proof.HostFns.lean ====
/-
  The host side of the kernel program, as functions of arrays.

  Between the kernels the program re-lays the normalisation as a `[50000, 1]` column (`colD`) and each bias vector as a
  `[1, 64]` row (`biasRow`), and moves a kernel's output along the edges: rows gathered where the edges read, added up
  where they land, into zeros (`hostHop`). With the three kernels' functions (`scaleProj`, `biasClip`) the whole program is
  one function of its arguments (`kernelFn`).
-/
import proofs.«126456_j86268713107997_2_alg».proof.Proof.Words

noncomputable section

namespace Cert.Gcn

open Idealize.ShloMosaic Idealize.ShloMosaic.ValueIdx
open Cert.KernelIdeal Cert.KernelIdeal.Facts₀

/-- The normalisation as the `[50000, 1]` column the kernels read. -/
def colD (ei : IVec S2x800000 32) : FVec Ideal S50000x1 .f32 :=
  shapeCast S50000x1 (dinvArr ei) shapeCasts_S50000_S50000x1

/-- A bias vector as the `[1, 64]` row the kernels read. -/
def biasRow (b : FVec Ideal S64 .f32) : FVec Ideal S1x64 .f32 := shapeCast S1x64 b shapeCasts_S64_S1x64

/-- Rows gathered where the edges read and added up where they land, into zeros. -/
def hostHop (ei : IVec S2x800000 32) (h : FVec Ideal S50000x64 .f32) : FVec Ideal S50000x64 .f32 :=
  Host.scatterAdd scatter_S50000x64_S850000x1_S850000x64_1_0_0_1
    (broadcastInDim S50000x64 ![] bcast_S_S50000x64 (constant (F := Ideal) S_ .f32 0x00000000#32)) (colT ei)
    (Host.gather gather_S50000x64_S850000x1_S850000x64_1_0_n_n_0_1_164 h (rowS ei))

/-- The whole kernel program: project and scale; move along the edges; scale, bias, clip, project and scale; move along
    the edges; scale, bias, clip. -/
def kernelFn (ei : IVec S2x800000 32) (x : FVec Ideal S50000x64 .f32) (w1 : FVec Ideal S64x64 .f32) (b1 : FVec Ideal S64 .f32)
    (w2 : FVec Ideal S64x64 .f32) (b2 : FVec Ideal S64 .f32) : FVec Ideal S50000x64 .f32 :=
  biasClip (hostHop ei (scaleProj (biasClip (hostHop ei (scaleProj x w1 (colD ei))) (colD ei) (biasRow b1)) w2 (colD ei)))
    (colD ei) (biasRow b2)

end Cert.Gcn

end
-- ==== Proof.Stretches.lean ====
/-
  The host operations between the kernels, read buffer by buffer.

  The idealized kernel program is eight segments: three stretches of host operations, the first kernel, a stretch, the
  second kernel, a stretch, the third kernel. The contents of the TensorCore's buffers at each boundary are a fold from
  the launch memory (`W0 … W8` of the generated frame). This module reads that fold at the buffers the kernels take:

  * before the first kernel: the edge words (`srcWords`, `dstWords`), and the normalisation as a `[50000, 1]` column
    (`colD`: the in-degree's reciprocal square root, re-laid);
  * between kernels: the previous kernel's output gathered at the rows the edges read and added up at the rows they land
    on (`hostHop`), and a bias vector re-laid as a `[1, 64]` row (`biasRow`);
  * what each kernel's write-backs leave in its output array is `Dat.arrAt` of that kernel's proof data, by the fold's
    own lemma; a buffer no later operation writes, and an array a kernel only reads, keep their contents.
-/
import proofs.«126456_j86268713107997_2_alg».proof.Proof.Gen.KernelIdeal.Frame
import proofs.«126456_j86268713107997_2_alg».proof.Proof.HostFns
import Idealize.ShloMosaic.Lib.StableHlo.Run

set_option maxRecDepth 16384

noncomputable section

namespace Cert.Gcn

open Idealize.ShloMosaic Idealize.ShloMosaic.TcCoe Idealize.ShloMosaic.ValueIdx Idealize.ShloMosaic.StableHlo
open Idealize.SL.Sem
open Cert.KernelIdeal Cert.KernelIdeal.Facts₀

namespace Stretch

open Cert.KernelIdeal.Gen

variable (m : (ℓ : Loc nD τ sig) → Buf (Elt Ideal) ℓ) (ρ : Dev nD → PrngReg) (c : Dev nD)

/-! ## Before the first kernel: the launch memory through the three opening stretches -/

set_option maxHeartbeats 4000000 in
theorem w3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0_2, hostOps0_1, hostOps0]
  after_results <;> rfl

set_option maxHeartbeats 4000000 in
theorem w3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  dsimp only [hostOps0_2, hostOps0_1, hostOps0]
  after_results <;> rfl

set_option maxHeartbeats 4000000 in
theorem w3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0_2, hostOps0_1, hostOps0]
  after_results <;> rfl

set_option maxHeartbeats 4000000 in
theorem w3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0_2, hostOps0_1, hostOps0]
  after_results <;> rfl

set_option maxHeartbeats 4000000 in
theorem w3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0_2, hostOps0_1, hostOps0]
  after_results <;> rfl

set_option maxHeartbeats 4000000 in
theorem w3_v5 : W3 m ρ c (Proc.devRef .tc main_v5) = srcWords (m ((c : Thread nD τ).loc main_arg1) : IVec S2x800000 32) := by
  show StableHlo.after hostOps0_2 (StableHlo.after hostOps0_1 (StableHlo.after hostOps0 (W0 m ρ c))) (Proc.devRef .tc main_v5) = _
  dsimp only [hostOps0_2, hostOps0_1, hostOps0]
  after_results
  unfold srcWords
  rfl

set_option maxHeartbeats 4000000 in
theorem w3_v6 : W3 m ρ c (Proc.devRef .tc main_v6) = dstWords (m ((c : Thread nD τ).loc main_arg1) : IVec S2x800000 32) := by
  show StableHlo.after hostOps0_2 (StableHlo.after hostOps0_1 (StableHlo.after hostOps0 (W0 m ρ c))) (Proc.devRef .tc main_v6) = _
  dsimp only [hostOps0_2, hostOps0_1, hostOps0]
  after_results
  unfold dstWords
  rfl

/-! ### The normalisation column, one stretch at a time over an arbitrary valuation -/

section
variable (G : Valuation τ sig (Elt Ideal))

set_option maxHeartbeats 400000 in
/-- The last opening stretch re-lays the normalisation vector as a column. -/
theorem s2_v15 : StableHlo.after hostOps0_2 G (Proc.devRef .tc main_v15)
    = shapeCast S50000x1 (G (Proc.devRef .tc main_v14) : FVec Ideal S50000 .f32) Facts₀.shapeCasts_S50000_S50000x1 := by
  dsimp only [hostOps0_2]
  after_results
  rfl

set_option maxHeartbeats 400000 in
/-- The middle stretch selects, entry by entry, the second vector where the mask holds and the splat of the scalar elsewhere. -/
theorem s1_v14 : StableHlo.after hostOps0_1 G (Proc.devRef .tc main_v14)
    = select (G (Proc.devRef .tc main_v12) : IVec S50000 1) (G (Proc.devRef .tc main_v13) : FVec Ideal S50000 .f32)
        (broadcastInDim S50000 ![] Facts₀.bcast_S_S50000 (G (Proc.devRef .tc main_cst_2) : FVec Ideal S_ .f32)) := by
  dsimp only [hostOps0_1]
  after_results
  rfl

set_option maxHeartbeats 4000000 in
/-- The opening stretch leaves in its buffer the mask of the nodes of positive in-degree, -/
theorem s0_v12 : StableHlo.after hostOps0 G (Proc.devRef .tc main_v12)
    = cmpf (F := Ideal) .ogt (degArr (G (Proc.devRef .tc main_arg1) : IVec S2x800000 32))
        (broadcastInDim S50000 ![] Facts₀.bcast_S_S50000 (constant (F := Ideal) S_ .f32 0x00000000#32)) := by
  dsimp only [hostOps0]
  after_results
  unfold degArr colT asColumn dstWords
  rfl

set_option maxHeartbeats 4000000 in
/-- the in-degree's reciprocal square root, -/
theorem s0_v13 : StableHlo.after hostOps0 G (Proc.devRef .tc main_v13)
    = Host.rsqrt (degArr (G (Proc.devRef .tc main_arg1) : IVec S2x800000 32)) := by
  dsimp only [hostOps0]
  after_results
  unfold degArr colT asColumn dstWords
  rfl

set_option maxHeartbeats 4000000 in
/-- and the zero scalar. -/
theorem s0_cst_2 : StableHlo.after hostOps0 G (Proc.devRef .tc main_cst_2) = constant (F := Ideal) S_ .f32 0x00000000#32 := by
  dsimp only [hostOps0]
  after_results
end

set_option maxHeartbeats 4000000 in
theorem w3_v15 : W3 m ρ c (Proc.devRef .tc main_v15) = colD (m ((c : Thread nD τ).loc main_arg1) : IVec S2x800000 32) := by
  refine (s2_v15 (W2 m ρ c)).trans ?_
  refine (congrArg (fun v => shapeCast S50000x1 (v : FVec Ideal S50000 .f32) Facts₀.shapeCasts_S50000_S50000x1) (s1_v14 (W1 m ρ c))).trans ?_
  have e12 : W1 m ρ c (Proc.devRef .tc main_v12) = _ := s0_v12 (W0 m ρ c)
  have e13 : W1 m ρ c (Proc.devRef .tc main_v13) = _ := s0_v13 (W0 m ρ c)
  have e0 : W1 m ρ c (Proc.devRef .tc main_cst_2) = _ := s0_cst_2 (W0 m ρ c)
  rw [e12, e13, e0]
  rfl

/-! ## Through the first kernel: its output array at what its write-backs leave, everything else as entered -/

theorem w4_v16 : W4 m ρ c (Proc.devRef .tc main_v16) = (dat0 (V3 m ρ) c).arrAt 3 cfg0.N := W4_arr m ρ c 3
theorem w4_v5 : W4 m ρ c (Proc.devRef .tc main_v5) = srcWords (m ((c : Thread nD τ).loc main_arg1) : IVec S2x800000 32) := (W4_of_ne m ρ c main_v5 (by decide)).trans (w3_v5 m ρ c)
theorem w4_v6 : W4 m ρ c (Proc.devRef .tc main_v6) = dstWords (m ((c : Thread nD τ).loc main_arg1) : IVec S2x800000 32) := (W4_of_ne m ρ c main_v6 (by decide)).trans (w3_v6 m ρ c)
theorem w4_arg3 : W4 m ρ c (Proc.devRef .tc main_arg3) = m ((c : Thread nD τ).loc main_arg3) := (W4_of_ne m ρ c main_arg3 (by decide)).trans (w3_arg3 m ρ c)
theorem w4_arg4 : W4 m ρ c (Proc.devRef .tc main_arg4) = m ((c : Thread nD τ).loc main_arg4) := (W4_of_ne m ρ c main_arg4 (by decide)).trans (w3_arg4 m ρ c)
theorem w4_arg5 : W4 m ρ c (Proc.devRef .tc main_arg5) = m ((c : Thread nD τ).loc main_arg5) := (W4_of_ne m ρ c main_arg5 (by decide)).trans (w3_arg5 m ρ c)
theorem w4_v15 : W4 m ρ c (Proc.devRef .tc main_v15) = colD (m ((c : Thread nD τ).loc main_arg1) : IVec S2x800000 32) :=
  ((W4_arr m ρ c 2).trans (((dat0 (V3 m ρ) c).arrAt_in 2 rfl _).trans (A_eq0 (V3 m ρ) c 2))).trans (w3_v15 m ρ c)

/-! ## The stretch between the first and the second kernel -/

set_option maxHeartbeats 4000000 in
theorem w5_v26 : W5 m ρ c (Proc.devRef .tc main_v26) = hostHop (m ((c : Thread nD τ).loc main_arg1) : IVec S2x800000 32) ((dat0 (V3 m ρ) c).arrAt 3 cfg0.N) := by
  show StableHlo.after hostOps1 (W4 m ρ c) (Proc.devRef .tc main_v26) = _
  dsimp only [hostOps1]
  after_results
  rw [w4_v16, w4_v5, w4_v6]
  rfl

set_option maxHeartbeats 4000000 in
theorem w5_v27 : W5 m ρ c (Proc.devRef .tc main_v27) = biasRow (m ((c : Thread nD τ).loc main_arg3)) := by
  show StableHlo.after hostOps1 (W4 m ρ c) (Proc.devRef .tc main_v27) = _
  dsimp only [hostOps1]
  after_results
  rw [w4_arg3]
  rfl

set_option maxHeartbeats 4000000 in
theorem w5_v15 : W5 m ρ c (Proc.devRef .tc main_v15) = colD (m ((c : Thread nD τ).loc main_arg1) : IVec S2x800000 32) := by
  show StableHlo.after hostOps1 (W4 m ρ c) (Proc.devRef .tc main_v15) = _
  dsimp only [hostOps1]
  after_results
  exact w4_v15 m ρ c

set_option maxHeartbeats 4000000 in
theorem w5_arg4 : W5 m ρ c (Proc.devRef .tc main_arg4) = m ((c : Thread nD τ).loc main_arg4) := by
  show StableHlo.after hostOps1 (W4 m ρ c) (Proc.devRef .tc main_arg4) = _
  dsimp only [hostOps1]
  after_results
  exact w4_arg4 m ρ c

set_option maxHeartbeats 4000000 in
theorem w5_arg5 : W5 m ρ c (Proc.devRef .tc main_arg5) = m ((c : Thread nD τ).loc main_arg5) := by
  show StableHlo.after hostOps1 (W4 m ρ c) (Proc.devRef .tc main_arg5) = _
  dsimp only [hostOps1]
  after_results
  exact w4_arg5 m ρ c

set_option maxHeartbeats 4000000 in
theorem w5_v5 : W5 m ρ c (Proc.devRef .tc main_v5) = srcWords (m ((c : Thread nD τ).loc main_arg1) : IVec S2x800000 32) := by
  show StableHlo.after hostOps1 (W4 m ρ c) (Proc.devRef .tc main_v5) = _
  dsimp only [hostOps1]
  after_results
  exact w4_v5 m ρ c

set_option maxHeartbeats 4000000 in
theorem w5_v6 : W5 m ρ c (Proc.devRef .tc main_v6) = dstWords (m ((c : Thread nD τ).loc main_arg1) : IVec S2x800000 32) := by
  show StableHlo.after hostOps1 (W4 m ρ c) (Proc.devRef .tc main_v6) = _
  dsimp only [hostOps1]
  after_results
  exact w4_v6 m ρ c

/-! ## Through the second kernel -/

theorem w6_v28 : W6 m ρ c (Proc.devRef .tc main_v28) = (dat1 (V5 m ρ) c).arrAt 4 cfg1.N := W6_arr m ρ c 4
theorem w6_v5 : W6 m ρ c (Proc.devRef .tc main_v5) = srcWords (m ((c : Thread nD τ).loc main_arg1) : IVec S2x800000 32) := (W6_of_ne m ρ c main_v5 (by decide)).trans (w5_v5 m ρ c)
theorem w6_v6 : W6 m ρ c (Proc.devRef .tc main_v6) = dstWords (m ((c : Thread nD τ).loc main_arg1) : IVec S2x800000 32) := (W6_of_ne m ρ c main_v6 (by decide)).trans (w5_v6 m ρ c)
theorem w6_arg5 : W6 m ρ c (Proc.devRef .tc main_arg5) = m ((c : Thread nD τ).loc main_arg5) := (W6_of_ne m ρ c main_arg5 (by decide)).trans (w5_arg5 m ρ c)
theorem w6_v15 : W6 m ρ c (Proc.devRef .tc main_v15) = colD (m ((c : Thread nD τ).loc main_arg1) : IVec S2x800000 32) :=
  ((W6_arr m ρ c 1).trans (((dat1 (V5 m ρ) c).arrAt_in 1 rfl _).trans (A_eq1 (V5 m ρ) c 1))).trans (w5_v15 m ρ c)

/-! ## The stretch between the second and the third kernel -/

set_option maxHeartbeats 4000000 in
theorem w7_v38 : W7 m ρ c (Proc.devRef .tc main_v38) = hostHop (m ((c : Thread nD τ).loc main_arg1) : IVec S2x800000 32) ((dat1 (V5 m ρ) c).arrAt 4 cfg1.N) := by
  show StableHlo.after hostOps2 (W6 m ρ c) (Proc.devRef .tc main_v38) = _
  dsimp only [hostOps2]
  after_results
  rw [w6_v28, w6_v5, w6_v6]
  rfl

set_option maxHeartbeats 4000000 in
theorem w7_v39 : W7 m ρ c (Proc.devRef .tc main_v39) = biasRow (m ((c : Thread nD τ).loc main_arg5)) := by
  show StableHlo.after hostOps2 (W6 m ρ c) (Proc.devRef .tc main_v39) = _
  dsimp only [hostOps2]
  after_results
  rw [w6_arg5]
  rfl

set_option maxHeartbeats 4000000 in
theorem w7_v15 : W7 m ρ c (Proc.devRef .tc main_v15) = colD (m ((c : Thread nD τ).loc main_arg1) : IVec S2x800000 32) := by
  show StableHlo.after hostOps2 (W6 m ρ c) (Proc.devRef .tc main_v15) = _
  dsimp only [hostOps2]
  after_results
  exact w6_v15 m ρ c

/-! ## Through the third kernel -/

theorem w8_v40 : W8 m ρ c (Proc.devRef .tc main_v40) = (dat2 (V7 m ρ) c).arrAt 3 cfg2.N := W8_arr m ρ c 3

end Stretch

end Cert.Gcn

end
-- ==== Proof.LibTileRows.lean ====
/-
  Reading a tile of rows, operation by operation, at the extended reals.

  A two-axis array `X` of `M` rows is described by its rows: a family `xr p k` with `X (p, k) = xr p k`. Each lemma
  below takes such a description of an operation's operands and returns the description of its result, so that a
  chain of operations is read by composing the lemmas, never by rewriting inside a large term. Everything is stated
  for arbitrary extents, so a 4096-row tile and a 262144-row array are read by the same lemmas.

  At the extended reals a change of float format is the identity, a product into a zero accumulator is the plain
  sum of products, and the rectifier is the maximum with zero.
-/
import proofs.«126456_j86268713107997_2_alg».proof.Proof.LibPlainDot
import Idealize.ShloMosaic.Lib.ValueLayout
import Idealize.ShloMosaic.Lib.Pipeline.Value

noncomputable section

namespace Cert.TileRows

open Idealize.ShloMosaic Idealize.ShloMosaic.ValueIdx

variable {M K N : Nat}

/-- Row `p` of a two-axis array. -/
abbrev rowOf {M K : Nat} (X : (⟨2, ![M, K]⟩ : Shape).Idx → EReal) (p : Fin M) : Fin K → EReal := fun k => X (ix2 p k)
/-- A two-axis array as a matrix. -/
abbrev matOf {K N : Nat} (w : (⟨2, ![K, N]⟩ : Shape).Idx → EReal) : Fin K → Fin N → EReal := fun k q => w (ix2 k q)
/-- A one-row array as a row. -/
abbrev vecOf {N : Nat} (b : (⟨2, ![1, N]⟩ : Shape).Idx → EReal) : Fin N → EReal := fun q => b (ix2 (0 : Fin 1) q)
/-- A one-axis array as a row. -/
abbrev vec1 {N : Nat} (b : (⟨1, ![N]⟩ : Shape).Idx → EReal) : Fin N → EReal := fun q => b (ix1 q)

/-- A vector made a one-row matrix is, as a row, the vector. -/
theorem vecOf_cast {N : Nat} (a : (⟨1, ![N]⟩ : Shape).Idx → EReal) (h : (⟨1, ![N]⟩ : Shape).ShapeCasts ⟨2, ![1, N]⟩) :
    vecOf (shapeCast ⟨2, ![1, N]⟩ a h) = vec1 a := funext fun q => shapeCast_a_1a_apply a h 0 q

/-- A re-laying to the same shape changes nothing. -/
theorem cast_rows {φ : FTy} (X : FVec Ideal ⟨2, ![M, K]⟩ φ) (h : (⟨2, ![M, K]⟩ : Shape).ShapeCasts ⟨2, ![M, K]⟩)
    (xr : Fin M → Fin K → EReal) (hX : ∀ p k, X (ix2 p k) = xr p k) :
    ∀ p k, shapeCast ⟨2, ![M, K]⟩ X h (ix2 p k) = xr p k := fun p k => by
  rw [shapeCast_self]; exact hX p k

/-- A change of float format changes nothing. -/
theorem trunc_rows {φ ψ : FTy} (X : FVec Ideal ⟨2, ![M, K]⟩ φ) (h : ψ.bits < φ.bits)
    (xr : Fin M → Fin K → EReal) (hX : ∀ p k, X (ix2 p k) = xr p k) :
    ∀ p k, (truncf ψ X h : FVec Ideal ⟨2, ![M, K]⟩ ψ) (ix2 p k) = xr p k := fun p k => hX p k

/-- A plain product of a tile of rows with a re-laid `K × N` matrix, into the zero accumulator: row `p` of the result
    is the row `p` of the tile times the matrix. -/
theorem mm_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (hw : (⟨2, ![K, N]⟩ : Shape).ShapeCasts ⟨2, ![K, N]⟩)
    (xr : Fin M → Fin K → EReal) (hX : ∀ p k, X (ix2 p k) = xr p k) :
    ∀ p q, matmul d prec X (shapeCast ⟨2, ![K, N]⟩ w hw) (constant ⟨2, ![M, N]⟩ .f32 0x00000000#32) (ix2 p q)
      = ∑ k : Fin K, xr p k * w (ix2 k q) := fun p q => by
  refine (Ideal.matmul_constant_zero_apply d prec X _ (ix2 p q)).trans ?_
  refine (Cert.PlainDot.sum_contr d hd X (shapeCast ⟨2, ![K, N]⟩ w hw) p q).trans ?_
  refine Finset.sum_congr rfl fun k _ => ?_
  rw [hX p k, shapeCast_self]

/-- Adding a one-row bias, re-laid and spread over the rows. -/
theorem bias_rows (Y : FVec Ideal ⟨2, ![M, N]⟩ .f32) (b : FVec Ideal ⟨2, ![1, N]⟩ .f32)
    (hb : (⟨2, ![1, N]⟩ : Shape).ShapeCasts ⟨2, ![1, N]⟩) (hbc : (⟨2, ![1, N]⟩ : Shape).Broadcasts ⟨2, ![M, N]⟩)
    (yr : Fin M → Fin N → EReal) (hY : ∀ p q, Y (ix2 p q) = yr p q) :
    ∀ p q, addf Y (broadcastTo ⟨2, ![M, N]⟩ (shapeCast ⟨2, ![1, N]⟩ b hb) hbc) (ix2 p q) = yr p q + b (ix2 (0 : Fin 1) q) := fun p q => by
  rw [addf_apply, hY p q, broadcastTo_1b_ab_apply, shapeCast_self]

/-- Adding two tiles. -/
theorem add_rows (Y Z : FVec Ideal ⟨2, ![M, N]⟩ .f32) (yr zr : Fin M → Fin N → EReal)
    (hY : ∀ p q, Y (ix2 p q) = yr p q) (hZ : ∀ p q, Z (ix2 p q) = zr p q) :
    ∀ p q, addf Y Z (ix2 p q) = yr p q + zr p q := fun p q => by
  rw [addf_apply, hY p q, hZ p q]

/-- The rectifier against a splat of the zero word. -/
theorem relu_rows (Y : FVec Ideal ⟨2, ![M, N]⟩ .f32) (yr : Fin M → Fin N → EReal) (hY : ∀ p q, Y (ix2 p q) = yr p q) :
    ∀ p q, maximumf Y (broadcast ⟨2, ![M, N]⟩ (Scalar.ofBits (F := Ideal) .f32 0x00000000#32)) (ix2 p q) = max (yr p q) 0 := fun p q => by
  rw [maximumf_apply, hY p q, broadcast_apply]
  show max (yr p q) (Ideal.ofBits .f32 0x00000000#32) = _
  rw [Ideal.ofBits_zero_f32]

/-- The rectifier against another tile known to be zero. -/
theorem relu_rows_of (Y Z : FVec Ideal ⟨2, ![M, N]⟩ .f32) (yr : Fin M → Fin N → EReal) (hY : ∀ p q, Y (ix2 p q) = yr p q)
    (hZ : ∀ p q, Z (ix2 p q) = 0) :
    ∀ p q, maximumf Y Z (ix2 p q) = max (yr p q) 0 := fun p q => by
  rw [maximumf_apply, hY p q, hZ p q]

/-- A splat of the zero word is zero everywhere. -/
theorem zero_rows : ∀ (p : Fin M) (q : Fin N), (broadcast ⟨2, ![M, N]⟩ (Scalar.ofBits (F := Ideal) .f32 0x00000000#32) : FVec Ideal ⟨2, ![M, N]⟩ .f32) (ix2 p q) = 0 := fun p q => by
  rw [broadcast_apply]
  show Ideal.ofBits .f32 0x00000000#32 = _
  rw [Ideal.ofBits_zero_f32]

/-- Columns `o … o + m − 1` cut out of a tile. -/
theorem cols_rows {m : Nat} (o : Nat) (Y : FVec Ideal ⟨2, ![M, N]⟩ .f32) (h : (⟨2, ![M, N]⟩ : Shape).Slices ![0, o] ⟨2, ![M, m]⟩)
    (hle : o + m ≤ N) (yr : Fin M → Fin N → EReal) (hY : ∀ p q, Y (ix2 p q) = yr p q) :
    ∀ (p : Fin M) (j : Fin m), extractStridedSlice ⟨2, ![M, m]⟩ ![0, o] Y h (ix2 p j) = yr p ⟨o + j.val, by omega⟩ := fun p j => by
  rw [slice2_axis1_apply o Y h p j ⟨o + j.val, by omega⟩ rfl]; exact hY p _

/-- Two tiles set side by side along the columns: row `p` of the result is row `p` of the first followed by row `p` of
    the second. -/
theorem concat_rows {A B C : Nat} (hC : A + B = C) (Y : (⟨2, ![M, A]⟩ : Shape).Idx → EReal) (Z : (⟨2, ![M, B]⟩ : Shape).Idx → EReal)
    (h : Shape.Concatenates [(⟨2, ![M, A]⟩ : Shape), ⟨2, ![M, B]⟩] ⟨2, ![M, C]⟩ (1 : Fin 2))
    (yr : Fin M → Fin A → EReal) (zr : Fin M → Fin B → EReal)
    (hY : ∀ p k, Y (ix2 p k) = yr p k) (hZ : ∀ p k, Z (ix2 p k) = zr p k) :
    ∀ (p : Fin M) (j : Fin C), concatenate ⟨2, ![M, C]⟩ (1 : Fin 2) [⟨⟨2, ![M, A]⟩, Y⟩, ⟨⟨2, ![M, B]⟩, Z⟩] h (ix2 p j)
      = Fin.append (yr p) (zr p) (Fin.cast hC.symm j) := by
  intro p j
  by_cases hj : j.val < A
  · have e1 := concatenate_pair_apply_left (1 : Fin 2) Y Z h (ix2 p j) rfl (ix2 p ⟨j.val, hj⟩)
      (fun b => by match b with | ⟨0, _⟩ => rfl | ⟨1, _⟩ => rfl)
    rw [e1, hY]
    have e : Fin.cast hC.symm j = Fin.castAdd B ⟨j.val, hj⟩ := Fin.ext rfl
    rw [e, Fin.append_left]
  · have hjB : j.val - A < B := by have := j.isLt; omega
    have e1 := concatenate_pair_apply_right (1 : Fin 2) Y Z h (ix2 p j) rfl rfl (ix2 p ⟨j.val - A, hjB⟩)
      (fun b hb => by match b with | ⟨0, _⟩ => rfl | ⟨1, _⟩ => exact absurd rfl hb)
      (by show (j.val - A) + A = j.val; omega)
    rw [e1, hZ]
    have e : Fin.cast hC.symm j = Fin.natAdd A ⟨j.val - A, hjB⟩ := Fin.ext (by show j.val = A + (j.val - A); omega)
    rw [e, Fin.append_right]

end Cert.TileRows

end
-- ==== Proof.Region0.lean ====
/-
  The first kernel's output array as one function of the arrays it reads.

  The kernel runs over ten grid points; point `t` stages rows `5000 t … 5000 t + 4999` of the `[50000, 64]` input and of
  the `[50000, 1]` column, the whole `[64, 64]` matrix, and writes rows `5000 t … 5000 t + 4999` of the output. On a tile
  its body multiplies the rows by the matrix (into a zero accumulator, through a change of float format that is the
  identity on the extended reals) and scales row `p` of the product by entry `p` of the column. So entry `(n, j)` of the
  output array is `(∑ k, x (n, k) · w (k, j)) · dv (n, 0)`: each row is written by exactly one point, `n / 5000`.
-/
import proofs.«126456_j86268713107997_2_alg».proof.Proof.Gen.KernelIdeal.Frame
import proofs.«126456_j86268713107997_2_alg».proof.Proof.Spec
import proofs.«126456_j86268713107997_2_alg».proof.Proof.LibTileRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn.Regions

open Idealize.ShloMosaic Idealize.ShloMosaic.TcCoe Idealize.ShloMosaic.ValueIdx Cert.KernelIdeal Cert.KernelIdeal.Gen Cert.Gcn
open Idealize.ShloMosaic.Pipeline (Dat)

/-! ## Two general facts -/

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The kernels' matrix product is the plain one: columns of the left operand against rows of the right one. -/
theorem plain_dot : Cert.PlainDot.IsPlain dot_S5000x64_S64x64_S5000x64_1_0_0_1_n_n := ⟨rfl, rfl, rfl, rfl, rfl, rfl⟩

/-- The all-zero offset. -/
theorem hz : (![0, 0] : Fin 2 → Nat) = fun _ => 0 := funext fun a => by fin_cases a <;> rfl

/-! ## The body on a tile -/

/-- Entry `(p, q)` of what the first kernel's body stores: row `p` of the tile times column `q` of the matrix, scaled by
    entry `p` of the column tile. -/
theorem pay0_apply (x0 : Vec Ideal S5000x64 .f32) (x1 : Vec Ideal S64x64 .f32) (x2 : Vec Ideal S5000x1 .f32)
    (p : Fin 5000) (q : Fin 64) :
    k0_pay1 x0 x1 x2 (ix2 p q) = (∑ k : Fin 64, x0 (ix2 p k) * x1 (ix2 k q)) * x2 (ix2 p (0 : Fin 1)) := by
  unfold k0_pay1
  rw [mulf_apply]
  refine congrArg₂ (· * ·) ?_ ?_
  · refine (Ideal.matmul_constant_zero_apply _ none _ _ (ix2 p q)).trans ?_
    exact Cert.PlainDot.sum_contr _ plain_dot x0 x1 p q
  · rw [broadcastTo_a1_ab_apply, shapeCast_self]

/-- On a tile whose rows are rows `5000 t + p` of the arrays, the body's entry `(p, q)` is entry `(5000 t + p, q)` of the
    scaled product of the arrays. -/
theorem pay0_rows (x0 : Vec Ideal S5000x64 .f32) (x1 : Vec Ideal S64x64 .f32) (x2 : Vec Ideal S5000x1 .f32)
    (X : S50000x64.Idx → EReal) (Wm : S64x64.Idx → EReal) (Dv : S50000x1.Idx → EReal)
    (p : Fin 5000) (q : Fin 64) (n : Fin 50000)
    (h0 : ∀ k : Fin 64, x0 (ix2 p k) = X (ix2 n k)) (h1 : ∀ k : Fin 64, x1 (ix2 k q) = Wm (ix2 k q))
    (h2 : x2 (ix2 p (0 : Fin 1)) = Dv (ix2 n (0 : Fin 1))) :
    k0_pay1 x0 x1 x2 (ix2 p q) = scaleProj X Wm Dv (ix2 n q) := by
  rw [pay0_apply, h2]
  show _ = (∑ k : Fin 64, X (ix2 n k) * Wm (ix2 k q)) * Dv (ix2 n (0 : Fin 1))
  exact congrArg (· * Dv (ix2 n (0 : Fin 1))) (Finset.sum_congr rfl fun k _ => by rw [h0 k, h1 k])

/-! ## The index maps over the grid -/

/-- The printed index maps, decided over the ten points: the row tiles of the input, of the column and of the output are
    tile `t` at point `t`; the matrix is read whole. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-! ## The staged tiles as rows of the arrays -/

/-- The input's tile at point `t` is rows `5000 t … 5000 t + 4999` of the input array. -/
theorem iblk0_0_apply (c : Dev nD) (t : Fin cfg0.N) (x : S5000x64.Idx) (k : S50000x64.Idx)
    (hk0 : (k 0).val = 5000 * t.val + (x 0).val) (hk1 : (k 1).val = (x 1).val) :
    (iblk0 V c 0 t : Vec Ideal S5000x64 .f32) x = (V c main_arg0 : S50000x64.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 64 + 1 * (x 1).val = (k 1).val; rw [e1, hk1]; omega

/-- The matrix's tile at every point is the matrix. -/
theorem iblk0_1_apply (c : Dev nD) (t : Fin cfg0.N) (x : S64x64.Idx) :
    (iblk0 V c 1 t : Vec Ideal S64x64 .f32) x = (V c main_arg2 : S64x64.Idx → EReal) x := by
  obtain ⟨-, -, e0, e1, -⟩ := idx_facts0 t
  unfold iblk0
  rw [View.read_apply]
  show V c main_arg2 _ = V c main_arg2 _
  congr 1
  funext a
  apply Fin.ext
  match a with
  | ⟨0, _⟩ => show win0_1.index t 0 * 64 + 1 * (x 0).val = (x 0).val; rw [e0]; omega
  | ⟨1, _⟩ => show win0_1.index t 1 * 64 + 1 * (x 1).val = (x 1).val; rw [e1]; omega

/-- The column's tile at point `t` is entries `5000 t … 5000 t + 4999` of the column. -/
theorem iblk0_2_apply (c : Dev nD) (t : Fin cfg0.N) (x : S5000x1.Idx) (k : S50000x1.Idx)
    (hk0 : (k 0).val = 5000 * t.val + (x 0).val) (hk1 : (k 1).val = (x 1).val) :
    (iblk0 V c 2 t : Vec Ideal S5000x1 .f32) x = (V c main_v15 : S50000x1.Idx → EReal) k := by
  obtain ⟨-, -, -, -, e0, e1, -⟩ := idx_facts0 t
  unfold iblk0
  rw [View.read_apply]
  show V c main_v15 _ = V c main_v15 _
  congr 1
  funext a
  apply Fin.ext
  match a with
  | ⟨0, _⟩ => show win0_2.index t 0 * 5000 + 1 * (x 0).val = (k 0).val; rw [e0, hk0]; omega
  | ⟨1, _⟩ => show win0_2.index t 1 * 1 + 1 * (x 1).val = (k 1).val; rw [e1, hk1]; omega

/-! ## What a point writes back, and the whole array -/

/-- WHAT POINT `t` WRITES BACK is tile `t` of the scaled product of the arrays as the kernel finds them. -/
theorem flushed0_eq (c : Dev nD) (t : Fin cfg0.N) :
    (dat0 (F := Ideal) V c).flushed 3 t
      = ((cfg0.win 3).blk t).view.read (Elt Ideal) (scaleProj (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S5000x1) hz]
  obtain ⟨-, -, -, -, -, -, e0, e1⟩ := idx_facts0 t
  have ht : t.val < 10 := t.isLt
  funext j
  obtain ⟨p, q, rfl⟩ : ∃ (p : Fin 5000) (q : Fin 64), j = ix2 p q := ⟨j 0, j 1, eq_ix2 j⟩
  have hn : 5000 * t.val + p.val < 50000 := by have := p.isLt; omega
  have hemb : ((cfg0.win 3).blk t).view.emb (ix2 p q) = (ix2 (⟨5000 * t.val + p.val, hn⟩ : Fin 50000) q : S50000x64.Idx) := by
    funext a
    apply Fin.ext
    match a with
    | ⟨0, _⟩ => show win0_3.index t 0 * 5000 + 1 * p.val = 5000 * t.val + p.val; rw [e0]; omega
    | ⟨1, _⟩ => show win0_3.index t 1 * 64 + 1 * q.val = q.val; rw [e1]; omega
  show k0_pay1 (iblk0 V c 0 t) (iblk0 V c 1 t) (iblk0 V c 2 t) (ix2 p q)
    = scaleProj (V c main_arg0) (V c main_arg2) (V c main_v15) (((cfg0.win 3).blk t).view.emb (ix2 p q))
  rw [hemb]
  refine pay0_rows _ _ _ _ _ _ p q ⟨5000 * t.val + p.val, hn⟩ (fun k => ?_) (fun k => ?_) ?_
  · exact iblk0_0_apply V c t (ix2 p k) _ rfl rfl
  · exact iblk0_1_apply V c t (ix2 k q)
  · exact iblk0_2_apply V c t (ix2 p (0 : Fin 1)) _ rfl rfl

/-- An index of the output array is in point `t`'s tile iff each coordinate is in the tile's range on its axis. -/
theorem mem_blk0 (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v16).slice (win0_3.rect t)).set ↔ _
  rw [View.set_slice_whole, Rect.mem_set_unit]
  exact Iff.rfl

/-- Row `r` of the output array is written by point `r / 5000`. -/
theorem cover0 (i : S50000x64.Idx) : ∃ t : Fin cfg0.N, (cfg0.win 3).flush t = true ∧ i ∈ ((cfg0.win 3).blk t).view.set := by
  have hi0 : (i 0).val < 50000 := idx2_lt0 i
  have hi1 : (i 1).val < 64 := idx2_lt1 i
  obtain ⟨t, ht⟩ : ∃ t : Fin cfg0.N, t.val = (i 0).val / 5000 := ⟨⟨(i 0).val / 5000, by show _ < 10; omega⟩, rfl⟩
  obtain ⟨-, -, -, -, -, -, e0, e1⟩ := idx_facts0 t
  refine ⟨t, flush0_3 t, (mem_blk0 t i).mpr fun a => ?_⟩
  match a with
  | ⟨0, _⟩ =>
    show win0_3.index t 0 * 5000 ≤ (i 0).val ∧ (i 0).val < win0_3.index t 0 * 5000 + 5000
    rw [e0, ht]; omega
  | ⟨1, _⟩ =>
    show win0_3.index t 1 * 64 ≤ (i 1).val ∧ (i 1).val < win0_3.index t 1 * 64 + 64
    rw [e1]; omega

/-- THE FIRST KERNEL'S OUTPUT ARRAY after its run: the rows of the input times the matrix, row `n` scaled by entry `n` of
    the column. -/
theorem final0 (c : Dev nD) :
    (dat0 (F := Ideal) V c).arrAt 3 cfg0.N = scaleProj (V c main_arg0) (V c main_arg2) (V c main_v15) :=
  (dat0 (F := Ideal) V c).arrAt_eq_of_cover 3 (scaleProj (V c main_arg0) (V c main_arg2) (V c main_v15))
    (fun t _ => flushed0_eq V c t) cover0

end

end Cert.Gcn.Regions

end
-- ==== Proof.Region2.lean ====
/-
  The last kernel's output array as one function of the arrays it reads.

  Over ten grid points, point `t` stages rows `5000 t … 5000 t + 4999` of the `[50000, 64]` input and of the
  `[50000, 1]` column, the whole `[1, 64]` bias row, and writes rows `5000 t … 5000 t + 4999` of the output. On a tile
  the body scales row `p` by entry `p` of the column tile, adds the bias row and takes the maximum with zero. So entry
  `(n, j)` of the output array is `max (a (n, j) · dv (n, 0) + b (0, j)) 0`.
-/
import proofs.«126456_j86268713107997_2_alg».proof.Proof.Region0

noncomputable section

open scoped BigOperators

namespace Cert.Gcn.Regions

open Idealize.ShloMosaic Idealize.ShloMosaic.TcCoe Idealize.ShloMosaic.ValueIdx Cert.KernelIdeal Cert.KernelIdeal.Gen Cert.Gcn
open Idealize.ShloMosaic.Pipeline (Dat)

/-! ## The body on a tile -/

/-- A tile with row `p` scaled by entry `p` of a column tile. -/
theorem scaled_rows (x0 : FVec Ideal S5000x64 .f32) (x1 : FVec Ideal S5000x1 .f32) (p : Fin 5000) (q : Fin 64) :
    mulf (shapeCast S5000x64 x0 shapeCasts_S5000x64_S5000x64)
      (broadcastTo S5000x64 (shapeCast S5000x1 x1 shapeCasts_S5000x1_S5000x1) broadcasts_S5000x1_S5000x64) (ix2 p q)
      = x0 (ix2 p q) * x1 (ix2 p (0 : Fin 1)) := by
  rw [mulf_apply, shapeCast_self, broadcastTo_a1_ab_apply, shapeCast_self]

/-- Scale by the column, add the bias row, clip below at zero: the tile's entry `(p, q)`. -/
theorem clip_rows (x0 : FVec Ideal S5000x64 .f32) (x1 : FVec Ideal S5000x1 .f32) (x2 : FVec Ideal S1x64 .f32)
    (p : Fin 5000) (q : Fin 64) :
    maximumf
      (addf (mulf (shapeCast S5000x64 x0 shapeCasts_S5000x64_S5000x64)
          (broadcastTo S5000x64 (shapeCast S5000x1 x1 shapeCasts_S5000x1_S5000x1) broadcasts_S5000x1_S5000x64))
        (broadcastTo S5000x64 (shapeCast S1x64 x2 shapeCasts_S1x64_S1x64) broadcasts_S1x64_S5000x64))
      (broadcast S5000x64 (Scalar.ofBits (F := Ideal) .f32 0x00000000#32)) (ix2 p q)
      = max (x0 (ix2 p q) * x1 (ix2 p (0 : Fin 1)) + x2 (ix2 (0 : Fin 1) q)) 0 :=
  Cert.TileRows.relu_rows _ (fun p q => x0 (ix2 p q) * x1 (ix2 p (0 : Fin 1)) + x2 (ix2 (0 : Fin 1) q))
    (Cert.TileRows.bias_rows _ x2 _ _ (fun p q => x0 (ix2 p q) * x1 (ix2 p (0 : Fin 1))) (scaled_rows x0 x1)) p q

/-- Entry `(p, q)` of what the last kernel's body stores. -/
theorem pay2_apply (x0 : Vec Ideal S5000x64 .f32) (x1 : Vec Ideal S5000x1 .f32) (x2 : Vec Ideal S1x64 .f32)
    (p : Fin 5000) (q : Fin 64) :
    k2_pay1 x0 x1 x2 (ix2 p q) = max (x0 (ix2 p q) * x1 (ix2 p (0 : Fin 1)) + x2 (ix2 (0 : Fin 1) q)) 0 := by
  unfold k2_pay1
  exact clip_rows x0 x1 x2 p q

/-- On a tile whose rows are rows `n` of the arrays, the body's entry `(p, q)` is entry `(n, q)` of the scaled, biased and
    clipped array. -/
theorem pay2_rows (x0 : Vec Ideal S5000x64 .f32) (x1 : Vec Ideal S5000x1 .f32) (x2 : Vec Ideal S1x64 .f32)
    (A : S50000x64.Idx → EReal) (Dv : S50000x1.Idx → EReal) (B : S1x64.Idx → EReal)
    (p : Fin 5000) (q : Fin 64) (n : Fin 50000)
    (h0 : x0 (ix2 p q) = A (ix2 n q)) (h1 : x1 (ix2 p (0 : Fin 1)) = Dv (ix2 n (0 : Fin 1)))
    (h2 : x2 (ix2 (0 : Fin 1) q) = B (ix2 (0 : Fin 1) q)) :
    k2_pay1 x0 x1 x2 (ix2 p q) = biasClip A Dv B (ix2 n q) := by
  rw [pay2_apply, h0, h1, h2]
  rfl

/-! ## The index maps over the grid -/

/-- The printed index maps, decided over the ten points: the row tiles of the input, of the column and of the output are
    tile `t` at point `t`; the bias row is read whole. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-! ## The staged tiles as rows of the arrays -/

/-- The input's tile at point `t` is rows `5000 t … 5000 t + 4999` of the input array. -/
theorem iblk2_0_apply (c : Dev nD) (t : Fin cfg2.N) (x : S5000x64.Idx) (k : S50000x64.Idx)
    (hk0 : (k 0).val = 5000 * t.val + (x 0).val) (hk1 : (k 1).val = (x 1).val) :
    (iblk2 V c 0 t : Vec Ideal S5000x64 .f32) x = (V c main_v38 : S50000x64.Idx → EReal) k := by
  obtain ⟨e0, e1, -⟩ := idx_facts2 t
  unfold iblk2
  rw [View.read_apply]
  show V c main_v38 _ = V c main_v38 _
  congr 1
  funext a
  apply Fin.ext
  match a with
  | ⟨0, _⟩ => show win2_0.index t 0 * 5000 + 1 * (x 0).val = (k 0).val; rw [e0, hk0]; omega
  | ⟨1, _⟩ => show win2_0.index t 1 * 64 + 1 * (x 1).val = (k 1).val; rw [e1, hk1]; omega

/-- The column's tile at point `t` is entries `5000 t … 5000 t + 4999` of the column. -/
theorem iblk2_1_apply (c : Dev nD) (t : Fin cfg2.N) (x : S5000x1.Idx) (k : S50000x1.Idx)
    (hk0 : (k 0).val = 5000 * t.val + (x 0).val) (hk1 : (k 1).val = (x 1).val) :
    (iblk2 V c 1 t : Vec Ideal S5000x1 .f32) x = (V c main_v15 : S50000x1.Idx → EReal) k := by
  obtain ⟨-, -, e0, e1, -⟩ := idx_facts2 t
  unfold iblk2
  rw [View.read_apply]
  show V c main_v15 _ = V c main_v15 _
  congr 1
  funext a
  apply Fin.ext
  match a with
  | ⟨0, _⟩ => show win2_1.index t 0 * 5000 + 1 * (x 0).val = (k 0).val; rw [e0, hk0]; omega
  | ⟨1, _⟩ => show win2_1.index t 1 * 1 + 1 * (x 1).val = (k 1).val; rw [e1, hk1]; omega

/-- The bias row's tile at every point is the bias row. -/
theorem iblk2_2_apply (c : Dev nD) (t : Fin cfg2.N) (x : S1x64.Idx) :
    (iblk2 V c 2 t : Vec Ideal S1x64 .f32) x = (V c main_v39 : S1x64.Idx → EReal) x := by
  obtain ⟨-, -, -, -, e0, e1, -⟩ := idx_facts2 t
  unfold iblk2
  rw [View.read_apply]
  show V c main_v39 _ = V c main_v39 _
  congr 1
  funext a
  apply Fin.ext
  match a with
  | ⟨0, _⟩ => show win2_2.index t 0 * 1 + 1 * (x 0).val = (x 0).val; rw [e0]; omega
  | ⟨1, _⟩ => show win2_2.index t 1 * 64 + 1 * (x 1).val = (x 1).val; rw [e1]; omega

/-! ## What a point writes back, and the whole array -/

/-- WHAT POINT `t` WRITES BACK is tile `t` of the scaled, biased and clipped array. -/
theorem flushed2_eq (c : Dev nD) (t : Fin cfg2.N) :
    (dat2 (F := Ideal) V c).flushed 3 t
      = ((cfg2.win 3).blk t).view.read (Elt Ideal) (biasClip (V c main_v38) (V c main_v15) (V c main_v39)) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S1x64) hz]
  obtain ⟨-, -, -, -, -, -, e0, e1⟩ := idx_facts2 t
  have ht : t.val < 10 := t.isLt
  funext j
  obtain ⟨p, q, rfl⟩ : ∃ (p : Fin 5000) (q : Fin 64), j = ix2 p q := ⟨j 0, j 1, eq_ix2 j⟩
  have hn : 5000 * t.val + p.val < 50000 := by have := p.isLt; omega
  have hemb : ((cfg2.win 3).blk t).view.emb (ix2 p q) = (ix2 (⟨5000 * t.val + p.val, hn⟩ : Fin 50000) q : S50000x64.Idx) := by
    funext a
    apply Fin.ext
    match a with
    | ⟨0, _⟩ => show win2_3.index t 0 * 5000 + 1 * p.val = 5000 * t.val + p.val; rw [e0]; omega
    | ⟨1, _⟩ => show win2_3.index t 1 * 64 + 1 * q.val = q.val; rw [e1]; omega
  show k2_pay1 (iblk2 V c 0 t) (iblk2 V c 1 t) (iblk2 V c 2 t) (ix2 p q)
    = biasClip (V c main_v38) (V c main_v15) (V c main_v39) (((cfg2.win 3).blk t).view.emb (ix2 p q))
  rw [hemb]
  refine pay2_rows _ _ _ _ _ _ p q ⟨5000 * t.val + p.val, hn⟩ ?_ ?_ ?_
  · exact iblk2_0_apply V c t (ix2 p q) _ rfl rfl
  · exact iblk2_1_apply V c t (ix2 p (0 : Fin 1)) _ rfl rfl
  · exact iblk2_2_apply V c t (ix2 (0 : Fin 1) q)

/-- An index of the output array is in point `t`'s tile iff each coordinate is in the tile's range on its axis. -/
theorem mem_blk2 (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v40).slice (win2_3.rect t)).set ↔ _
  rw [View.set_slice_whole, Rect.mem_set_unit]
  exact Iff.rfl

/-- Row `r` of the output array is written by point `r / 5000`. -/
theorem cover2 (i : S50000x64.Idx) : ∃ t : Fin cfg2.N, (cfg2.win 3).flush t = true ∧ i ∈ ((cfg2.win 3).blk t).view.set := by
  have hi0 : (i 0).val < 50000 := idx2_lt0 i
  have hi1 : (i 1).val < 64 := idx2_lt1 i
  obtain ⟨t, ht⟩ : ∃ t : Fin cfg2.N, t.val = (i 0).val / 5000 := ⟨⟨(i 0).val / 5000, by show _ < 10; omega⟩, rfl⟩
  obtain ⟨-, -, -, -, -, -, e0, e1⟩ := idx_facts2 t
  refine ⟨t, flush2_3 t, (mem_blk2 t i).mpr fun a => ?_⟩
  match a with
  | ⟨0, _⟩ =>
    show win2_3.index t 0 * 5000 ≤ (i 0).val ∧ (i 0).val < win2_3.index t 0 * 5000 + 5000
    rw [e0, ht]; omega
  | ⟨1, _⟩ =>
    show win2_3.index t 1 * 64 ≤ (i 1).val ∧ (i 1).val < win2_3.index t 1 * 64 + 64
    rw [e1]; omega

/-- THE LAST KERNEL'S OUTPUT ARRAY after its run: row `n` of the input scaled by entry `n` of the column, plus the bias
    row, clipped below at zero. -/
theorem final2 (c : Dev nD) :
    (dat2 (F := Ideal) V c).arrAt 3 cfg2.N = biasClip (V c main_v38) (V c main_v15) (V c main_v39) :=
  (dat2 (F := Ideal) V c).arrAt_eq_of_cover 3 (biasClip (V c main_v38) (V c main_v15) (V c main_v39))
    (fun t _ => flushed2_eq V c t) cover2

end

end Cert.Gcn.Regions

end
-- ==== Proof.Region1.lean ====
/-
  The middle kernel's output array as one function of the arrays it reads.

  Over ten grid points, point `t` stages rows `5000 t … 5000 t + 4999` of the `[50000, 64]` input and of the
  `[50000, 1]` column, the whole `[1, 64]` bias row and the whole `[64, 64]` matrix, and writes rows
  `5000 t … 5000 t + 4999` of the output. On a tile the body first does what the last kernel does — scales row `p` by entry
  `p` of the column tile, adds the bias row, takes the maximum with zero — and then what the first kernel does with the
  result: multiplies the rows by the matrix and scales row `p` of the product by entry `p` of the column tile again.
-/
import proofs.«126456_j86268713107997_2_alg».proof.Proof.Region2

noncomputable section

open scoped BigOperators

namespace Cert.Gcn.Regions

open Idealize.ShloMosaic Idealize.ShloMosaic.TcCoe Idealize.ShloMosaic.ValueIdx Cert.KernelIdeal Cert.KernelIdeal.Gen Cert.Gcn
open Idealize.ShloMosaic.Pipeline (Dat)

/-! ## The body on a tile -/

/-- Entry `(p, q)` of what the middle kernel's body stores: row `p` of the scaled, biased and clipped tile times column
    `q` of the matrix, scaled by entry `p` of the column tile. -/
theorem pay1_apply (x0 : Vec Ideal S5000x64 .f32) (x1 : Vec Ideal S5000x1 .f32) (x2 : Vec Ideal S1x64 .f32)
    (x3 : Vec Ideal S64x64 .f32) (x4 : Vec Ideal S5000x1 .f32) (p : Fin 5000) (q : Fin 64) :
    k1_pay1 x0 x1 x2 x3 x4 (ix2 p q)
      = (∑ k : Fin 64, max (x0 (ix2 p k) * x1 (ix2 p (0 : Fin 1)) + x2 (ix2 (0 : Fin 1) k)) 0 * x3 (ix2 k q))
        * x4 (ix2 p (0 : Fin 1)) := by
  unfold k1_pay1
  rw [mulf_apply]
  refine congrArg₂ (· * ·) ?_ ?_
  · refine (Ideal.matmul_constant_zero_apply _ none _ _ (ix2 p q)).trans ?_
    refine (Cert.PlainDot.sum_contr _ plain_dot _ x3 p q).trans ?_
    exact Finset.sum_congr rfl fun k _ => congrArg (· * x3 (ix2 k q)) (clip_rows x0 x1 x2 p k)
  · rw [broadcastTo_a1_ab_apply, shapeCast_self]

/-- On a tile whose rows are rows `n` of the arrays, the body's entry `(p, q)` is entry `(n, q)` of the scaled product of
    the scaled, biased and clipped array with the matrix. -/
theorem pay1_rows (x0 : Vec Ideal S5000x64 .f32) (x1 : Vec Ideal S5000x1 .f32) (x2 : Vec Ideal S1x64 .f32)
    (x3 : Vec Ideal S64x64 .f32) (x4 : Vec Ideal S5000x1 .f32)
    (A : S50000x64.Idx → EReal) (Dv : S50000x1.Idx → EReal) (B : S1x64.Idx → EReal) (Wm : S64x64.Idx → EReal)
    (p : Fin 5000) (q : Fin 64) (n : Fin 50000)
    (h0 : ∀ k : Fin 64, x0 (ix2 p k) = A (ix2 n k)) (h1 : x1 (ix2 p (0 : Fin 1)) = Dv (ix2 n (0 : Fin 1)))
    (h2 : ∀ k : Fin 64, x2 (ix2 (0 : Fin 1) k) = B (ix2 (0 : Fin 1) k)) (h3 : ∀ k : Fin 64, x3 (ix2 k q) = Wm (ix2 k q))
    (h4 : x4 (ix2 p (0 : Fin 1)) = Dv (ix2 n (0 : Fin 1))) :
    k1_pay1 x0 x1 x2 x3 x4 (ix2 p q) = scaleProj (biasClip A Dv B) Wm Dv (ix2 n q) := by
  rw [pay1_apply, h4]
  show _ = (∑ k : Fin 64, biasClip A Dv B (ix2 n k) * Wm (ix2 k q)) * Dv (ix2 n (0 : Fin 1))
  refine congrArg (· * Dv (ix2 n (0 : Fin 1))) (Finset.sum_congr rfl fun k _ => ?_)
  rw [h0 k, h1, h2 k, h3 k]
  rfl

/-! ## The index maps over the grid -/

/-- The printed index maps, decided over the ten points: the row tiles of the input, of the column and of the output are
    tile `t` at point `t`; the bias row and the matrix are read whole. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-! ## The staged tiles as rows of the arrays -/

/-- The input's tile at point `t` is rows `5000 t … 5000 t + 4999` of the input array. -/
theorem iblk1_0_apply (c : Dev nD) (t : Fin cfg1.N) (x : S5000x64.Idx) (k : S50000x64.Idx)
    (hk0 : (k 0).val = 5000 * t.val + (x 0).val) (hk1 : (k 1).val = (x 1).val) :
    (iblk1 V c 0 t : Vec Ideal S5000x64 .f32) x = (V c main_v26 : S50000x64.Idx → EReal) k := by
  obtain ⟨e0, e1, -⟩ := idx_facts1 t
  unfold iblk1
  rw [View.read_apply]
  show V c main_v26 _ = V c main_v26 _
  congr 1
  funext a
  apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- The column's tile at point `t` is entries `5000 t … 5000 t + 4999` of the column. -/
theorem iblk1_1_apply (c : Dev nD) (t : Fin cfg1.N) (x : S5000x1.Idx) (k : S50000x1.Idx)
    (hk0 : (k 0).val = 5000 * t.val + (x 0).val) (hk1 : (k 1).val = (x 1).val) :
    (iblk1 V c 1 t : Vec Ideal S5000x1 .f32) x = (V c main_v15 : S50000x1.Idx → EReal) k := by
  obtain ⟨-, -, e0, e1, -⟩ := idx_facts1 t
  unfold iblk1
  rw [View.read_apply]
  show V c main_v15 _ = V c main_v15 _
  congr 1
  funext a
  apply Fin.ext
  match a with
  | ⟨0, _⟩ => show win1_1.index t 0 * 5000 + 1 * (x 0).val = (k 0).val; rw [e0, hk0]; omega
  | ⟨1, _⟩ => show win1_1.index t 1 * 1 + 1 * (x 1).val = (k 1).val; rw [e1, hk1]; omega

/-- The bias row's tile at every point is the bias row. -/
theorem iblk1_2_apply (c : Dev nD) (t : Fin cfg1.N) (x : S1x64.Idx) :
    (iblk1 V c 2 t : Vec Ideal S1x64 .f32) x = (V c main_v27 : S1x64.Idx → EReal) x := by
  obtain ⟨-, -, -, -, e0, e1, -⟩ := idx_facts1 t
  unfold iblk1
  rw [View.read_apply]
  show V c main_v27 _ = V c main_v27 _
  congr 1
  funext a
  apply Fin.ext
  match a with
  | ⟨0, _⟩ => show win1_2.index t 0 * 1 + 1 * (x 0).val = (x 0).val; rw [e0]; omega
  | ⟨1, _⟩ => show win1_2.index t 1 * 64 + 1 * (x 1).val = (x 1).val; rw [e1]; omega

/-- The matrix's tile at every point is the matrix. -/
theorem iblk1_3_apply (c : Dev nD) (t : Fin cfg1.N) (x : S64x64.Idx) :
    (iblk1 V c 3 t : Vec Ideal S64x64 .f32) x = (V c main_arg4 : S64x64.Idx → EReal) x := by
  obtain ⟨-, -, -, -, -, -, e0, e1, -⟩ := idx_facts1 t
  unfold iblk1
  rw [View.read_apply]
  show V c main_arg4 _ = V c main_arg4 _
  congr 1
  funext a
  apply Fin.ext
  match a with
  | ⟨0, _⟩ => show win1_3.index t 0 * 64 + 1 * (x 0).val = (x 0).val; rw [e0]; omega
  | ⟨1, _⟩ => show win1_3.index t 1 * 64 + 1 * (x 1).val = (x 1).val; rw [e1]; omega

/-! ## What a point writes back, and the whole array -/

/-- WHAT POINT `t` WRITES BACK is tile `t` of the scaled product of the scaled, biased and clipped array with the matrix. -/
theorem flushed1_eq (c : Dev nD) (t : Fin cfg1.N) :
    (dat1 (F := Ideal) V c).flushed 4 t
      = ((cfg1.win 4).blk t).view.read (Elt Ideal)
          (scaleProj (biasClip (V c main_v26) (V c main_v15) (V c main_v27)) (V c main_arg4) (V c main_v15)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz,
    View.ld_unit_zero (S := S64x64) hz]
  obtain ⟨-, -, -, -, -, -, -, -, e0, e1⟩ := idx_facts1 t
  have ht : t.val < 10 := t.isLt
  funext j
  obtain ⟨p, q, rfl⟩ : ∃ (p : Fin 5000) (q : Fin 64), j = ix2 p q := ⟨j 0, j 1, eq_ix2 j⟩
  have hn : 5000 * t.val + p.val < 50000 := by have := p.isLt; omega
  have hemb : ((cfg1.win 4).blk t).view.emb (ix2 p q) = (ix2 (⟨5000 * t.val + p.val, hn⟩ : Fin 50000) q : S50000x64.Idx) := by
    funext a
    apply Fin.ext
    match a with
    | ⟨0, _⟩ => show win1_4.index t 0 * 5000 + 1 * p.val = 5000 * t.val + p.val; rw [e0]; omega
    | ⟨1, _⟩ => show win1_4.index t 1 * 64 + 1 * q.val = q.val; rw [e1]; omega
  show k1_pay1 (iblk1 V c 0 t) (iblk1 V c 1 t) (iblk1 V c 2 t) (iblk1 V c 3 t) (iblk1 V c 1 t) (ix2 p q)
    = scaleProj (biasClip (V c main_v26) (V c main_v15) (V c main_v27)) (V c main_arg4) (V c main_v15)
        (((cfg1.win 4).blk t).view.emb (ix2 p q))
  rw [hemb]
  refine pay1_rows _ _ _ _ _ _ _ _ _ p q ⟨5000 * t.val + p.val, hn⟩ (fun k => ?_) ?_ (fun k => ?_) (fun k => ?_) ?_
  · exact iblk1_0_apply V c t (ix2 p k) _ rfl rfl
  · exact iblk1_1_apply V c t (ix2 p (0 : Fin 1)) _ rfl rfl
  · exact iblk1_2_apply V c t (ix2 (0 : Fin 1) k)
  · exact iblk1_3_apply V c t (ix2 k q)
  · exact iblk1_1_apply V c t (ix2 p (0 : Fin 1)) _ rfl rfl

/-- An index of the output array is in point `t`'s tile iff each coordinate is in the tile's range on its axis. -/
theorem mem_blk1 (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v28).slice (win1_4.rect t)).set ↔ _
  rw [View.set_slice_whole, Rect.mem_set_unit]
  exact Iff.rfl

/-- Row `r` of the output array is written by point `r / 5000`. -/
theorem cover1 (i : S50000x64.Idx) : ∃ t : Fin cfg1.N, (cfg1.win 4).flush t = true ∧ i ∈ ((cfg1.win 4).blk t).view.set := by
  have hi0 : (i 0).val < 50000 := idx2_lt0 i
  have hi1 : (i 1).val < 64 := idx2_lt1 i
  obtain ⟨t, ht⟩ : ∃ t : Fin cfg1.N, t.val = (i 0).val / 5000 := ⟨⟨(i 0).val / 5000, by show _ < 10; omega⟩, rfl⟩
  obtain ⟨-, -, -, -, -, -, -, -, e0, e1⟩ := idx_facts1 t
  refine ⟨t, flush1_4 t, (mem_blk1 t i).mpr fun a => ?_⟩
  match a with
  | ⟨0, _⟩ =>
    show win1_4.index t 0 * 5000 ≤ (i 0).val ∧ (i 0).val < win1_4.index t 0 * 5000 + 5000
    rw [e0, ht]; omega
  | ⟨1, _⟩ =>
    show win1_4.index t 1 * 64 ≤ (i 1).val ∧ (i 1).val < win1_4.index t 1 * 64 + 64
    rw [e1]; omega

/-- THE MIDDLE KERNEL'S OUTPUT ARRAY after its run: the rows of the scaled, biased and clipped input times the matrix, row
    `n` scaled by entry `n` of the column. -/
theorem final1 (c : Dev nD) :
    (dat1 (F := Ideal) V c).arrAt 4 cfg1.N
      = scaleProj (biasClip (V c main_v26) (V c main_v15) (V c main_v27)) (V c main_arg4) (V c main_v15) :=
  (dat1 (F := Ideal) V c).arrAt_eq_of_cover 4
    (scaleProj (biasClip (V c main_v26) (V c main_v15) (V c main_v27)) (V c main_arg4) (V c main_v15))
    (fun t _ => flushed1_eq V c t) cover1

end

end Cert.Gcn.Regions

end
-- ==== Proof.KernelValue.lean ====
/-
  What the idealized kernel program leaves in its result array.

  Read back from the last boundary to the launch: the third kernel's array is its function of the arrays it is entered with;
  of those, the aggregate is the second kernel's array moved along the edges, and so on down to the launch memory. The
  result is the program's one function `kernelFn` of the six arguments.
-/
import proofs.«126456_j86268713107997_2_alg».proof.Proof.Stretches
import proofs.«126456_j86268713107997_2_alg».proof.Proof.Region0
import proofs.«126456_j86268713107997_2_alg».proof.Proof.Region1
import proofs.«126456_j86268713107997_2_alg».proof.Proof.Region2

noncomputable section

namespace Cert.Gcn

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg) (c : Dev nD)

/-- The result array after the run is the program's function of the launch arguments. -/
theorem kernel_result :
    W8 m ρ c (Proc.devRef .tc main_v40)
      = kernelFn (m ((c : Thread nD τ).loc main_arg1)) (m ((c : Thread nD τ).loc main_arg0)) (m ((c : Thread nD τ).loc main_arg2))
          (m ((c : Thread nD τ).loc main_arg3)) (m ((c : Thread nD τ).loc main_arg4)) (m ((c : Thread nD τ).loc main_arg5)) := by
  rw [Stretch.w8_v40, Regions.final2 (V7 m ρ) c]
  show biasClip (W7 m ρ c (Proc.devRef .tc main_v38)) (W7 m ρ c (Proc.devRef .tc main_v15)) (W7 m ρ c (Proc.devRef .tc main_v39)) = _
  rw [Stretch.w7_v38, Stretch.w7_v15, Stretch.w7_v39, Regions.final1 (V5 m ρ) c]
  show biasClip (hostHop _ (scaleProj (biasClip (W5 m ρ c (Proc.devRef .tc main_v26)) (W5 m ρ c (Proc.devRef .tc main_v15))
    (W5 m ρ c (Proc.devRef .tc main_v27))) (W5 m ρ c (Proc.devRef .tc main_arg4)) (W5 m ρ c (Proc.devRef .tc main_v15)))) _ _ = _
  rw [Stretch.w5_v26, Stretch.w5_v15, Stretch.w5_v27, Stretch.w5_arg4, Regions.final0 (V3 m ρ) c]
  show biasClip (hostHop _ (scaleProj (biasClip (hostHop _ (scaleProj (W3 m ρ c (Proc.devRef .tc main_arg0))
    (W3 m ρ c (Proc.devRef .tc main_arg2)) (W3 m ρ c (Proc.devRef .tc main_v15)))) _ _) _ _)) _ _ = _
  rw [Stretch.w3_arg0, Stretch.w3_arg2, Stretch.w3_v15]
  rfl

end Cert.Gcn

end
-- ==== Proof.LibColumnLayouts.lean ====
/-
  Flat arrays, rows and columns: the re-layings the two programs use, read at an index, for any extents.

  * `flat_of_row`: row `r` of an `[R, E]` array cut out as `[1, E]` and re-laid flat reads, at `e`, the array at `(r, e)`;
  * `column_of_flat`: a flat `[E]` array spread to a column `[E, 1]` reads, at `(e, 0)`, its entry `e`;
  * `column_cast`, `row_cast`: a flat array re-laid as a column `[N, 1]` or a row `[1, D]` reads its entry `n` at `(n, 0)`,
    its entry `j` at `(0, j)`.
-/
import Idealize.ShloMosaic.Lib.ValueIdx
import Idealize.ShloMosaic.Lib.Pipeline.Value

noncomputable section

namespace Cert.Layouts

open Idealize.ShloMosaic Idealize.ShloMosaic.ValueIdx

variable {α : Type} {R E N D : Nat}

/-- Row `r` of an `[R, E]` array, cut out and re-laid flat, at position `e`. -/
theorem flat_of_row (r : Fin R) (off : Fin 2 → Nat) (h0 : off 0 = r.val) (h1 : off 1 = 0)
    (x : (⟨2, ![R, E]⟩ : Shape).Idx → α) (hs : (⟨2, ![R, E]⟩ : Shape).Slices off ⟨2, ![1, E]⟩)
    (hc : (⟨2, ![1, E]⟩ : Shape).ShapeCasts ⟨1, ![E]⟩) (e : Fin E) :
    shapeCast ⟨1, ![E]⟩ (extractStridedSlice ⟨2, ![1, E]⟩ off x hs) hc (ix1 e) = x (ix2 r e) := by
  rw [shapeCast_apply _ hc (ix1 e) (ix2 (0 : Fin 1) e) (by
    rw [Shape.rowMajor_val_two, Shape.rowMajor_val_one]
    show 0 * E + e.val = e.val
    omega)]
  exact extractStridedSlice_apply off x hs (ix2 (0 : Fin 1) e) (ix2 r e) (fun a => match a with
    | ⟨0, _⟩ => by show r.val = off 0 + 0; omega
    | ⟨1, _⟩ => by show e.val = off 1 + e.val; omega)

/-- A flat array spread to a column, at `(e, 0)`. -/
theorem column_of_flat (hE : E ≠ 1) (h : (⟨1, ![E]⟩ : Shape).BroadcastsInDim ⟨2, ![E, 1]⟩ (![0] : Fin 1 → Fin 2))
    (x : (⟨1, ![E]⟩ : Shape).Idx → α) (e : Fin E) :
    broadcastInDim ⟨2, ![E, 1]⟩ (![0] : Fin 1 → Fin 2) h x (ix2 e (0 : Fin 1)) = x (ix1 e) :=
  broadcastInDim_apply _ h _ (ix2 e (0 : Fin 1)) (ix1 e) (fun a => match a with
    | ⟨0, _⟩ => by show e.val = if E = 1 then 0 else e.val; rw [if_neg hE])

/-- A flat array re-laid as a column, at `(n, 0)`. -/
theorem column_cast (x : (⟨1, ![N]⟩ : Shape).Idx → α) (h : (⟨1, ![N]⟩ : Shape).ShapeCasts ⟨2, ![N, 1]⟩) (n : Fin N) :
    shapeCast ⟨2, ![N, 1]⟩ x h (ix2 n (0 : Fin 1)) = x (ix1 n) :=
  shapeCast_apply x h (ix2 n (0 : Fin 1)) (ix1 n) (by
    rw [Shape.rowMajor_val_two, Shape.rowMajor_val_one]
    show n.val = n.val * 1 + 0
    omega)

/-- A flat array re-laid as a row, at `(0, j)`. -/
theorem row_cast (x : (⟨1, ![D]⟩ : Shape).Idx → α) (h : (⟨1, ![D]⟩ : Shape).ShapeCasts ⟨2, ![1, D]⟩) (j : Fin D) :
    shapeCast ⟨2, ![1, D]⟩ x h (ix2 (0 : Fin 1) j) = x (ix1 j) :=
  shapeCast_apply x h (ix2 (0 : Fin 1) j) (ix1 j) (by
    rw [Shape.rowMajor_val_two, Shape.rowMajor_val_one]
    show j.val = 0 * D + j.val
    omega)

end Cert.Layouts

end
-- ==== Proof.KernelMath.lean ====
/-
  The kernel program's function on real entries is the two-layer network.

  Each piece, on arrays of real numbers, is an array of real numbers: the scaled projection (`scaleProj_real`), the move along
  the edges (`hostHop_real`: the sum over the edges landing on a row of the rows they read), and the scale-bias-clip
  (`biasClip_real`). Chained they are the fused layer twice, which is the layer twice because `D n` factors out of the
  finite sum over the edges landing on `n` (`Cert.Gcn.fusedLayer_eq_layer`; every such edge reads `n` through its wrapped target
  word, `lands_reads`).
-/
import proofs.«126456_j86268713107997_2_alg».proof.Proof.HostFns
import proofs.«126456_j86268713107997_2_alg».proof.Proof.LibColumnLayouts

noncomputable section

open scoped BigOperators

namespace Cert.Gcn

open Idealize.ShloMosaic Idealize.ShloMosaic.ValueIdx Cert.Lib.RowOps Cert.Lib.RealSum Cert.Lib.Propagate Cert.Lib.NormHop
open Cert.KernelIdeal Cert.KernelIdeal.Facts₀

variable (ei : IVec S2x800000 32)

/-- The column the kernels read holds the real normalisation. -/
theorem colD_apply (n : Fin 50000) : colD ei (ix2 n (0 : Fin 1)) = (Dof ei n : EReal) := by
  unfold colD
  rw [Cert.Layouts.column_cast (dinvArr ei) shapeCasts_S50000_S50000x1 n]
  exact dinvArr_eq ei n

/-- A bias row holds the bias vector's entries. -/
theorem biasRow_apply (b : FVec Ideal S64 .f32) (j : Fin 64) : biasRow b (ix2 (0 : Fin 1) j) = b (ix1 j) := by
  unfold biasRow
  exact Cert.Layouts.row_cast b shapeCasts_S64_S1x64 j

/-- The scaled projection of real arrays. -/
theorem scaleProj_real (D : Fin 50000 → ℝ) (r : (⟨2, ![50000, 64]⟩ : Shape).Idx → ℝ) (w : (⟨2, ![64, 64]⟩ : Shape).Idx → ℝ)
    (dv : (⟨2, ![50000, 1]⟩ : Shape).Idx → EReal) (hdv : ∀ n : Fin 50000, dv (ix2 n (0 : Fin 1)) = (D n : EReal)) :
    scaleProj (fun i => (r i : EReal)) (fun i => (w i : EReal)) dv = fun y => ((scaledReal D r w y : ℝ) : EReal) := by
  funext y
  obtain ⟨n, j, rfl⟩ : ∃ (n : Fin 50000) (j : Fin 64), y = ix2 n j := ⟨y 0, y 1, eq_ix2 y⟩
  show (∑ k : Fin 64, (r (ix2 n k) : EReal) * (w (ix2 k j) : EReal)) * dv (ix2 n (0 : Fin 1)) = ((contract r w (ix2 n j) * D n : ℝ) : EReal)
  rw [← contract_coe, hdv, ← EReal.coe_mul]

/-- Scale, bias, clip of a real array. -/
theorem biasClip_real (D : Fin 50000 → ℝ) (β : Fin 64 → ℝ) (a : (⟨2, ![50000, 64]⟩ : Shape).Idx → ℝ)
    (dv : (⟨2, ![50000, 1]⟩ : Shape).Idx → EReal) (hdv : ∀ n : Fin 50000, dv (ix2 n (0 : Fin 1)) = (D n : EReal))
    (b : (⟨2, ![1, 64]⟩ : Shape).Idx → EReal) (hb : ∀ j : Fin 64, b (ix2 (0 : Fin 1) j) = (β j : EReal)) :
    biasClip (fun i => (a i : EReal)) dv b = fun y => ((max (a y * D (rowOf y) + β (colOf y)) 0 : ℝ) : EReal) := by
  funext y
  obtain ⟨n, j, rfl⟩ : ∃ (n : Fin 50000) (j : Fin 64), y = ix2 n j := ⟨y 0, y 1, eq_ix2 y⟩
  show max ((a (ix2 n j) : EReal) * dv (ix2 n (0 : Fin 1)) + b (ix2 (0 : Fin 1) j)) 0 = ((max (a (ix2 n j) * D n + β j) 0 : ℝ) : EReal)
  rw [hdv, hb, ← EReal.coe_mul, ← EReal.coe_add, ← EReal.coe_zero]
  exact (EReal.coe_strictMono.monotone.map_max (a := a (ix2 n j) * D n + β j) (b := 0)).symm

/-- The move along the edges of a real array: over the edges landing on a row, the sum of the rows they read. -/
theorem hostHop_real (r : (⟨2, ![50000, 64]⟩ : Shape).Idx → ℝ) :
    hostHop ei (fun i => (r i : EReal)) = fun y => ((gatherSum hN (rowS ei) (colT ei) r y : ℝ) : EReal) :=
  host_gatherSum hN gather_S50000x64_S850000x1_S850000x64_1_0_n_n_0_1_164_wf scatter_S50000x64_S850000x1_S850000x64_1_0_0_1_wf
    gather_S50000x64_S850000x1_S850000x64_1_0_n_n_0_1_164 scatter_S50000x64_S850000x1_S850000x64_1_0_0_1 rfl rfl
    (rowS ei) (colT ei) _ (fun i => zeros_apply bcast_S_S50000x64 i) r

/-- One fused layer of the kernel program on real entries. -/
theorem kernelLayer_real (r : (⟨2, ![50000, 64]⟩ : Shape).Idx → ℝ) (w : (⟨2, ![64, 64]⟩ : Shape).Idx → ℝ)
    (b : FVec Ideal S64 .f32) (β : Fin 64 → ℝ) (hb : ∀ j : Fin 64, b (ix1 j) = (β j : EReal)) :
    biasClip (hostHop ei (scaleProj (fun i => (r i : EReal)) (fun i => (w i : EReal)) (colD ei))) (colD ei) (biasRow b)
      = fun y => ((layerReal (rowS ei) (rowT ei) (colT ei) (Dof ei) r w β y : ℝ) : EReal) := by
  rw [scaleProj_real (Dof ei) r w (colD ei) (colD_apply ei), hostHop_real,
    biasClip_real (Dof ei) β _ (colD ei) (colD_apply ei) (biasRow b) (fun j => (biasRow_apply b j).trans (hb j)),
    ← fusedLayer_eq_layer (rowS ei) (rowT ei) (colT ei) (Dof ei) (lands_reads ei) r w β]
  rfl

/-- THE KERNEL PROGRAM on real arguments is the two-layer network. -/
theorem kernelFn_real (xr : (⟨2, ![50000, 64]⟩ : Shape).Idx → ℝ) (w1r w2r : (⟨2, ![64, 64]⟩ : Shape).Idx → ℝ)
    (b1 b2 : FVec Ideal S64 .f32) (β1 β2 : Fin 64 → ℝ) (hb1 : ∀ j : Fin 64, b1 (ix1 j) = (β1 j : EReal))
    (hb2 : ∀ j : Fin 64, b2 (ix1 j) = (β2 j : EReal)) :
    kernelFn ei (fun i => (xr i : EReal)) (fun i => (w1r i : EReal)) b1 (fun i => (w2r i : EReal)) b2
      = fun y => ((netReal (rowS ei) (rowT ei) (colT ei) (Dof ei) xr w1r β1 w2r β2 y : ℝ) : EReal) := by
  unfold kernelFn netReal
  rw [kernelLayer_real ei xr w1r b1 β1 hb1, kernelLayer_real ei _ w2r b2 β2 hb2]

end Cert.Gcn

end
-- ==== Proof.RefValue.lean ====
/-
  The reference program's result is the two-layer network of the specification, on real inputs.

  The reference computes, from the edge words, the source and target columns, the in-degree and the normalisation
  `D = deg ^ (-1/2)` once, and the edges' weights `D (row the source word reads) · D (row the target word reads)` as one
  `[850000]` array (`edgeW`). Each of its two layers (`refLayer`) is then: the product of the rows with a `[64, 64]` matrix;
  the rows gathered at the source column; row `e` of the gathered array multiplied by the weight of edge `e`, spread along
  the row; the rows added up at the target column into zeros; the bias row added to every row; the maximum with zero.
  The program's composed term IS two such layers, one inside the other (`res_eq`, by unfolding).

  On real entries every step of a layer stays among the reals and is the step of the specification: the product is
  the real product, the weight of edge `e` is the real `edgeCoef … e` (the normalisation array is a real column,
  `dinvArr_eq`), the gather–scale–add is the real propagation `stepReal`, the bias and the maximum with zero are the real
  ones (`refLayer_real`). The first layer's result is therefore a real array again, and the second layer applies to it
  (`ref_value`).
-/
import proofs.«126456_j86268713107997_2_alg».proof.Proof.RefRunP
import proofs.«126456_j86268713107997_2_alg».proof.Proof.Words

noncomputable section

open scoped BigOperators

namespace Cert.Gcn.Ref

open Idealize.ShloMosaic Idealize.ShloMosaic.ValueIdx Idealize.SL.Sem Cert.ReferenceIdeal Cert.Gcn Cert.Lib.RowOps Cert.Lib.RealSum
  Cert.Lib.Propagate Cert.Lib.NormHop
open Cert.ReferenceIdeal.Facts₀

variable (ei : IVec S2x800000 32)

/-- The edges' weights as the program computes them: the normalisation gathered at the rows the source words read, times
    the normalisation gathered at the rows the target words read. -/
def edgeW : FVec Ideal S850000 .f32 :=
  mulf (Host.gather gather_S50000_S850000x1_S850000_n_0_n_n_0_1_1 (dinvArr ei) (rowS ei))
    (Host.gather gather_S50000_S850000x1_S850000_n_0_n_n_0_1_1 (dinvArr ei) (rowT ei))

/-- One layer as the program computes it: project, gather the source rows, weight row `e` by edge `e`'s weight, add the
    rows up at their targets into zeros, add the bias row, clip below at zero. -/
def refLayer (h : FVec Ideal S50000x64 .f32) (w : FVec Ideal S64x64 .f32) (b : FVec Ideal S64 .f32) :
    FVec Ideal S50000x64 .f32 :=
  maximumf
    (addf
      (Host.scatterAdd scatter_S50000x64_S850000x1_S850000x64_1_0_0_1
        (broadcastInDim S50000x64 ![] bcast_S_S50000x64 (constant (F := Ideal) S_ .f32 0x00000000#32)) (colT ei)
        (mulf
          (Host.gather gather_S50000x64_S850000x1_S850000x64_1_0_n_n_0_1_164
            (Host.dotGeneral (F := Ideal) dot_S50000x64_S64x64_S50000x64_1_0_0_1_n_n none h w) (rowS ei))
          (broadcastInDim S850000x64 ![0, 1] bcast_S850000x1_S850000x64_0_1
            (broadcastInDim S850000x1 ![0] bcast_S850000_S850000x1_0 (edgeW ei)))))
      (broadcastInDim S50000x64 ![0, 1] bcast_S1x64_S50000x64_0_1 (broadcastInDim S1x64 ![1] bcast_S64_S1x64_1 b)))
    (broadcastInDim S50000x64 ![] bcast_S_S50000x64 (constant (F := Ideal) S_ .f32 0x00000000#32))

/-! ## One layer on real entries -/

/-- The maximum of a real with zero, among the extended reals, is the real maximum. -/
theorem coe_max_zero (a : ℝ) : max (a : EReal) 0 = ((max a 0 : ℝ) : EReal) :=
  (EReal.coe_strictMono.monotone.map_max (a := a) (b := 0)).symm

/-- The normalisation array gathered at a column of index words reads, at edge `e`, the real column at the row the word
    names. -/
theorem gather_dinv_apply (idx : IVec S850000x1 32) (e : Fin 850000) :
    Host.gather gather_S50000_S850000x1_S850000_n_0_n_n_0_1_1 (dinvArr ei) idx (ix1 e)
      = ((Dof ei (clampRow hN idx e) : ℝ) : EReal) :=
  (flatGather_apply hN gather_S50000_S850000x1_S850000_n_0_n_n_0_1_1_wf (dinvArr ei) idx e).trans (dinvArr_eq ei _)

/-- The weight of edge `e` is the real weight of the specification. -/
theorem edgeW_apply (e : Fin 850000) :
    edgeW ei (ix1 e) = ((edgeCoef hN (rowS ei) (rowT ei) (Dof ei) e : ℝ) : EReal) := by
  unfold edgeW edgeCoef
  rw [mulf_apply, gather_dinv_apply, gather_dinv_apply]
  exact (EReal.coe_mul _ _).symm

/-- The weights spread along the rows read, at `(e, f)`, the real weight of edge `e`. -/
theorem edgeW_spread_apply (e : Fin 850000) (f : Fin 64) :
    broadcastInDim S850000x64 ![0, 1] bcast_S850000x1_S850000x64_0_1
        (broadcastInDim S850000x1 ![0] bcast_S850000_S850000x1_0 (edgeW ei)) (ix2 e f)
      = ((edgeCoef hN (rowS ei) (rowT ei) (Dof ei) e : ℝ) : EReal) :=
  (rowBroadcast_apply (by norm_num) bcast_S850000_S850000x1_0 bcast_S850000x1_S850000x64_0_1 (edgeW ei) e f).trans
    (edgeW_apply ei e)

/-- The rows times the matrix, on real entries, is the real product. -/
theorem dot_real (r : S50000x64.Idx → ℝ) (w : S64x64.Idx → ℝ) :
    Host.dotGeneral (F := Ideal) (φ₁ := .f32) (φ₂ := .f32) dot_S50000x64_S64x64_S50000x64_1_0_0_1_n_n none
        (fun x => (r x : EReal) : FVec Ideal S50000x64 .f32) (fun x => (w x : EReal) : FVec Ideal S64x64 .f32)
      = fun y => ((contract r w y : ℝ) : EReal) :=
  dotGeneral_real dot_S50000x64_S64x64_S50000x64_1_0_0_1_n_n ⟨rfl, rfl, rfl, rfl, rfl, rfl⟩ r w

/-- A real array gathered at the source column, row `e` weighted by edge `e`'s weight, added up at the target column into
    zeros, is the real propagation with the specification's weights. -/
theorem hop_real_here (r : S50000x64.Idx → ℝ) :
    Host.scatterAdd scatter_S50000x64_S850000x1_S850000x64_1_0_0_1
        (broadcastInDim S50000x64 ![] bcast_S_S50000x64 (constant (F := Ideal) S_ .f32 0x00000000#32)) (colT ei)
        (mulf
          (Host.gather gather_S50000x64_S850000x1_S850000x64_1_0_n_n_0_1_164 (fun y => (r y : EReal)) (rowS ei))
          (broadcastInDim S850000x64 ![0, 1] bcast_S850000x1_S850000x64_0_1
            (broadcastInDim S850000x1 ![0] bcast_S850000_S850000x1_0 (edgeW ei))))
      = fun x => ((stepReal hN (rowS ei) (colT ei) (edgeCoef hN (rowS ei) (rowT ei) (Dof ei)) r x : ℝ) : EReal) :=
  host_hop_real hN gather_S50000x64_S850000x1_S850000x64_1_0_n_n_0_1_164_wf
    scatter_S50000x64_S850000x1_S850000x64_1_0_0_1_wf gather_S50000x64_S850000x1_S850000x64_1_0_n_n_0_1_164
    scatter_S50000x64_S850000x1_S850000x64_1_0_0_1 rfl rfl (rowS ei) (colT ei) _ _
    (fun i => zeros_apply bcast_S_S50000x64 i) (edgeCoef hN (rowS ei) (rowT ei) (Dof ei)) (edgeW_spread_apply ei) r

/-- A real array plus a bias row of reals spread over its rows is the real sum. -/
theorem bias_real (b : FVec Ideal S64 .f32) (β : Fin 64 → ℝ) (hb : ∀ j : Fin 64, b (ix1 j) = (β j : EReal))
    (r : S50000x64.Idx → ℝ) :
    addf (fun x => (r x : EReal) : FVec Ideal S50000x64 .f32)
        (broadcastInDim S50000x64 ![0, 1] bcast_S1x64_S50000x64_0_1 (broadcastInDim S1x64 ![1] bcast_S64_S1x64_1 b))
      = fun x => ((r x + β (colOf x) : ℝ) : EReal) :=
  add_biasRows_real bcast_S64_S1x64_1 bcast_S1x64_S50000x64_0_1 b β hb r

/-- A real array clipped below at the zero array is the real maximum with zero. -/
theorem clip_real (r : S50000x64.Idx → ℝ) :
    maximumf (fun x => (r x : EReal) : FVec Ideal S50000x64 .f32)
        (broadcastInDim S50000x64 ![] bcast_S_S50000x64 (constant (F := Ideal) S_ .f32 0x00000000#32))
      = fun x => ((max (r x) 0 : ℝ) : EReal) := by
  funext y
  rw [maximumf_apply, zeros_apply]
  exact coe_max_zero _

/-- ONE LAYER ON REAL ENTRIES is the specification's layer: a real array, entry by entry. -/
theorem refLayer_real (r : S50000x64.Idx → ℝ) (w : S64x64.Idx → ℝ) (b : FVec Ideal S64 .f32) (β : Fin 64 → ℝ)
    (hb : ∀ j : Fin 64, b (ix1 j) = (β j : EReal)) :
    refLayer ei (fun x => (r x : EReal)) (fun x => (w x : EReal)) b
      = fun y => ((layerReal (rowS ei) (rowT ei) (colT ei) (Dof ei) r w β y : ℝ) : EReal) := by
  unfold refLayer
  -- from the inside out: the product, the propagation of the product, the bias row, the maximum with zero — each a real array
  rw [dot_real r w, hop_real_here ei (contract r w), bias_real b β hb, clip_real]
  -- what is left is the specification's layer, written out
  rfl

/-! ## The program's term is two layers -/

/-- The composed term of the program's operations is one layer applied to the other's result: both sides unfold to the same
    term, the columns of index words and the normalisation being the ones named above. -/
theorem res_eq (m : (ℓ : Loc nD τ sig) → Buf (Elt Ideal) ℓ) (c : Dev nD) :
    Cert.ReferenceIdeal.ValueP.res_main_v65 (F := Ideal) m c
      = refLayer (m ((c.tc : Thread nD τ).loc main_arg1))
          (refLayer (m ((c.tc : Thread nD τ).loc main_arg1)) (m ((c.tc : Thread nD τ).loc main_arg0))
            (m ((c.tc : Thread nD τ).loc main_arg2)) (m ((c.tc : Thread nD τ).loc main_arg3)))
          (m ((c.tc : Thread nD τ).loc main_arg4)) (m ((c.tc : Thread nD τ).loc main_arg5)) := by
  unfold Cert.ReferenceIdeal.ValueP.res_main_v65
  rfl

/-- THE REFERENCE'S RESULT ON REAL INPUTS is the two-layer network, a real array. -/
theorem ref_value (m : (ℓ : Loc nD τ sig) → Buf (Elt Ideal) ℓ) (c : Dev nD)
    (xr : (⟨2, ![50000, 64]⟩ : Shape).Idx → ℝ) (w1r w2r : (⟨2, ![64, 64]⟩ : Shape).Idx → ℝ) (β1 β2 : Fin 64 → ℝ)
    (hx : (m ((c.tc : Thread nD τ).loc main_arg0) : S50000x64.Idx → EReal) = fun i => (xr i : EReal))
    (hw1 : (m ((c.tc : Thread nD τ).loc main_arg2) : S64x64.Idx → EReal) = fun i => (w1r i : EReal))
    (hb1 : ∀ j : Fin 64, (m ((c.tc : Thread nD τ).loc main_arg3) : S64.Idx → EReal) (ix1 j) = (β1 j : EReal))
    (hw2 : (m ((c.tc : Thread nD τ).loc main_arg4) : S64x64.Idx → EReal) = fun i => (w2r i : EReal))
    (hb2 : ∀ j : Fin 64, (m ((c.tc : Thread nD τ).loc main_arg5) : S64.Idx → EReal) (ix1 j) = (β2 j : EReal)) :
    Cert.ReferenceIdeal.ValueP.res_main_v65 (F := Ideal) m c
      = fun i => ((netReal (rowS (m ((c.tc : Thread nD τ).loc main_arg1) : IVec S2x800000 32))
          (rowT (m ((c.tc : Thread nD τ).loc main_arg1) : IVec S2x800000 32))
          (colT (m ((c.tc : Thread nD τ).loc main_arg1) : IVec S2x800000 32))
          (Dof (m ((c.tc : Thread nD τ).loc main_arg1) : IVec S2x800000 32)) xr w1r β1 w2r β2 i : ℝ) : EReal) := by
  refine (res_eq m c).trans ?_
  -- the inner layer on the real inputs is a real array, so the outer layer applies to real entries again
  rw [hx, hw1, hw2, refLayer_real _ xr w1r _ β1 hb1]
  exact refLayer_real _ _ w2r _ β2 hb2

end Cert.Gcn.Ref

end
-- ==== Proof.Finite.lean ====
/-
  Under the precondition every float argument is an array of real numbers.

  The precondition is the conjunction, over the five float arguments, of "every entry's absolute value is below +∞"
  (`jnp.all (|a| < inf)`). On the extended reals `|x| = max x (−x)`, and `max x (−x) < ⊤` excludes both `⊤` and `⊥`, so the
  entry is a real number (`isReal_of_abs_lt_top`); the infinity word `0x7F800000` denotes `⊤`. The conjunction is split word by
  word and each `all` is read at an index.
-/
import proofs.«126456_j86268713107997_2_alg».proof.Pre_finite_inputs
import proofs.«126456_j86268713107997_2_alg».proof.Proof.Gen.Pre_finite_inputs
import proofs.«126456_j86268713107997_2_alg».proof.Proof.LibRealSum
import Idealize.ShloMosaic.Lib.ReduceAll
import Idealize.ShloMosaic.Lib.Affine
import Idealize.ShloMosaic.Lib.ValueIdx
import Idealize.ShloMosaic.Lib.Pipeline.Value

noncomputable section

namespace Cert.Gcn.Finite

open Idealize.ShloMosaic Idealize.ShloMosaic.ValueIdx Cert.Lib.RealSum
open Cert.Pre_finite_inputs Cert.Pre_finite_inputs.Facts

instance : Subsingleton S_.Idx := ⟨fun a b => funext fun d => d.elim0⟩

/-- An extended real whose absolute value is below `⊤` is a real number. -/
theorem isReal_of_abs_lt_top (x : EReal) (h : max x (-x) < ⊤) : IsReal x := by
  have h1 : x < ⊤ := lt_of_le_of_lt (le_max_left _ _) h
  have h2 : -x < ⊤ := lt_of_le_of_lt (le_max_right _ _) h
  have hb : x ≠ ⊥ := by
    rintro rfl
    simp at h2
  exact ⟨x.toReal, (EReal.coe_toReal h1.ne hb).symm⟩

/-- An entry that passes the test `|a i| < inf` is a real number. -/
theorem real_of_test {s : Shape} (a : FVec Ideal s .f32) (hb : S_.BroadcastsInDim s (![] : Fin 0 → Fin s.rank)) (i : s.Idx)
    (h : cmpf (F := Ideal) .olt (Host.absf a) (broadcastInDim s ![] hb (constant (F := Ideal) S_ .f32 0x7F800000#32)) i = 1#1) :
    IsReal (a i) := by
  have hc : broadcastInDim s ![] hb (constant (F := Ideal) S_ .f32 0x7F800000#32) i = (⊤ : EReal) := by
    rw [broadcastInDim_apply _ hb _ i ix0 (fun a => a.elim0)]
    show Ideal.ofBits .f32 0x7F800000#32 = ⊤
    simp [Ideal.ofBits, Ideal.ieee]
  have h' : BitVec.ofBool (decide (max (a i) (-(a i)) < (⊤ : EReal))) = 1#1 := by
    rw [← hc]; exact h
  refine isReal_of_abs_lt_top _ ?_
  by_contra hn
  rw [decide_eq_false hn] at h'
  exact absurd h' (by decide)

/-- The precondition's function at all ones makes every float argument real. -/
theorem reals_of_fn (a0 : FVec Ideal S50000x64 .f32) (a1 : IVec S2x800000 32) (a2 : FVec Ideal S64x64 .f32)
    (a3 : FVec Ideal S64 .f32) (a4 : FVec Ideal S64x64 .f32) (a5 : FVec Ideal S64 .f32)
    (h : fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ (∀ i, IsReal (a5 i)) := by
  have h0 := congrFun h ix0
  dsimp only [fn, fn_part1] at h0
  have e : ∀ (p q : IVec S_ 1), andi p q ix0 = IntOp.andi (p ix0) (q ix0) := fun _ _ => rfl
  simp only [e, IntOp.andi_eq_one] at h0
  obtain ⟨⟨⟨⟨h1, h2⟩, h3⟩, h4⟩, h5⟩ := h0
  exact ⟨fun i => real_of_test a0 _ i (Host.reduce_andi_all _ _ _ _ ix0 h1 i),
    fun i => real_of_test a2 _ i (Host.reduce_andi_all _ _ _ _ ix0 h2 i),
    fun i => real_of_test a3 _ i (Host.reduce_andi_all _ _ _ _ ix0 h3 i),
    fun i => real_of_test a4 _ i (Host.reduce_andi_all _ _ _ _ ix0 h4 i),
    fun i => real_of_test a5 _ i (Host.reduce_andi_all _ _ _ _ ix0 h5 i)⟩

end Cert.Gcn.Finite

end
-- ==== Proof.lean ====
/-
  Two graph-convolution layers: the fused Pallas program against the plain jnp reference, equal on the extended reals
  wherever the float inputs are finite.

  Both programs compute `x ↦ relu (Â (relu (Â (x W1) + b1) W2) + b2)`, `Â` the adjacency with self-loops normalised on both
  sides by `D = deg ^ (-1/2)`. The reference weights each gathered row by `D (source) · D (target)` before adding the rows up
  at their targets. The kernel program scales the rows of `x W` by `D` in the kernel that computes them, adds the gathered
  rows up with no weight, and scales row `n` of the sum by `D n` in the next kernel. The two agree because `D n` is common
  to all the edges landing on `n` and factors out of their finite sum — a law of the real numbers, which is where the
  precondition enters: with finite inputs every array along the way holds real numbers (`Proof/Finite.lean`,
  `Proof/Words.lean`, `Proof/KernelMath.lean`).

  The pieces: the kernel program's run with its result named (`Proof/KernelRun.lean`); each of its three kernels' output
  arrays as one function of the arrays it reads (`Proof/Region0.lean`, `Region1.lean`, `Region2.lean`); the host operations
  between them read buffer by buffer (`Proof/Stretches.lean`), which together make the result the one function `kernelFn`
  of the arguments (`Proof/KernelValue.lean`); that function on real arguments is the two-layer network `netReal`
  (`Proof/KernelMath.lean`), and so is the reference's result (`Proof/RefValue.lean` over the reference's run,
  `Proof/RefRunP.lean`). The three frames are the generated frame certificates and the reference's run; the idealization
  rewrote nothing, so `preserves` is trivial.
-/
import proofs.«126456_j86268713107997_2_alg».proof.Defs
import proofs.«126456_j86268713107997_2_alg».proof.Proof.Gen.Kernel
import proofs.«126456_j86268713107997_2_alg».proof.Proof.Gen.Kernel.Skeleton
import proofs.«126456_j86268713107997_2_alg».proof.Proof.Gen.Kernel.Launch
import proofs.«126456_j86268713107997_2_alg».proof.Proof.Gen.Kernel.Points
import proofs.«126456_j86268713107997_2_alg».proof.Proof.Gen.Kernel.Frame
import proofs.«126456_j86268713107997_2_alg».proof.Proof.Gen.KernelIdeal
import proofs.«126456_j86268713107997_2_alg».proof.Proof.Gen.KernelIdeal.Skeleton
import proofs.«126456_j86268713107997_2_alg».proof.Proof.Gen.KernelIdeal.Launch
import proofs.«126456_j86268713107997_2_alg».proof.Proof.Gen.KernelIdeal.Points
import proofs.«126456_j86268713107997_2_alg».proof.Proof.Gen.KernelIdeal.Frame
import proofs.«126456_j86268713107997_2_alg».proof.Proof.Gen.ReferenceIdeal
import proofs.«126456_j86268713107997_2_alg».proof.Proof.Gen.Pre_finite_inputs
import proofs.«126456_j86268713107997_2_alg».proof.Proof.KernelRun
import proofs.«126456_j86268713107997_2_alg».proof.Proof.KernelValue
import proofs.«126456_j86268713107997_2_alg».proof.Proof.KernelMath
import proofs.«126456_j86268713107997_2_alg».proof.Proof.RefValue
import proofs.«126456_j86268713107997_2_alg».proof.Proof.Finite
import Idealize.ShloMosaic.Adequacy
import Idealize.ShloMosaic.Init

noncomputable section

namespace Cert.Proof

open Idealize.ShloMosaic Idealize.ShloMosaic.ValueIdx Idealize.SL.Sem Cert.Lib.RealSum

/-- An array of real numbers among the extended reals is the coercion of a real array. -/
theorem exists_real {ι : Type} (a : ι → EReal) (h : ∀ i, IsReal (a i)) : ∃ r : ι → ℝ, a = fun i => (r i : EReal) :=
  ⟨fun i => (a i).toReal, funext fun i => by
    obtain ⟨r, hr⟩ := h i
    show a i = ((a i).toReal : EReal)
    rw [hr, EReal.toReal_coe]⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments, finite where float: the kernel program's result array ends at `kernelFn` of the
    arguments, the reference's at the network `netReal` of their real values, and `kernelFn` on real arguments is that network. -/
theorem algebraic : Cert.algebraic_KernelIdeal_ReferenceIdeal := by
  intro m ρ m' ρ' hpre hagree
  refine ⟨fun c => Cert.Gcn.kernelFn (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Gcn.kernel_result m ρ c), (h c).2⟩)
      (Cert.Gcn.KernelRun.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a2, a3, a4, a5⟩ := Cert.Gcn.Finite.reals_of_fn _ _ _ _ _ _ (hpre c)
    obtain ⟨xr, hx⟩ := exists_real _ a0
    obtain ⟨w1r, hw1⟩ := exists_real _ a2
    obtain ⟨b1r, hb1⟩ := exists_real _ a3
    obtain ⟨w2r, hw2⟩ := exists_real _ a4
    obtain ⟨b2r, hb2⟩ := exists_real _ a5
    obtain ⟨e0, e1, e2, e3, e4, e5⟩ := hagree c
    rw [Cert.Gcn.Ref.ref_value m' c xr w1r w2r (fun j => b1r (ix1 j)) (fun j => b2r (ix1 j))
      (e0.trans hx) (e2.trans hw1) (fun j => (congrFun (e3.trans hb1) (ix1 j))) (e4.trans hw2)
      (fun j => (congrFun (e5.trans hb2) (ix1 j))), e1]
    have hk := Cert.Gcn.kernelFn_real (m ((c.tc : Thread Cert.KernelIdeal.nD Cert.KernelIdeal.τ).loc Cert.KernelIdeal.main_arg1)) xr w1r w2r (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (fun j => b1r (ix1 j)) (fun j => b2r (ix1 j))
      (fun j => congrFun hb1 (ix1 j)) (fun j => congrFun hb2 (ix1 j))
    rw [← hx, ← hw1, ← hw2] at hk
    exact hk.symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
